-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v180)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v180) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S8x512x256 : Shape := ⟨3, ![8, 512, 256]⟩
abbrev S8x500000 : Shape := ⟨2, ![8, 500000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S8x512x256 : S_.BroadcastsInDim S8x512x256 (![] : Fin 0 → Fin S8x512x256.rank)
  reducesTo_S8x512x256_S_d0_1_2 : S8x512x256.ReducesTo [0, 1, 2] S_
  bcast_S_S8x500000 : S_.BroadcastsInDim S8x500000 (![] : Fin 0 → Fin S8x500000.rank)
  reducesTo_S8x500000_S_d0_1 : S8x500000.ReducesTo [0, 1] S_

variable [Facts]

def fn {F : FTy → Type} [FloatOps F] (main_arg0 : FVec F S50000x512 .f32) (main_arg1 : FVec F S8x512x256 .f32) (main_arg2 : FVec F S8x500000 .f32) (main_arg3 : IVec S8x500000 32) (main_arg4 : IVec S8x500000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S8x512x256 .f32 := Host.absf main_arg1
  let main_cst_0 : FVec F S_ .f32 := constant S_ .f32 0x7F800000#32
  let main_v5 : FVec F S8x512x256 .f32 := broadcastInDim S8x512x256 ![] bcast_S_S8x512x256 main_cst_0
  let main_v6 : IVec S8x512x256 1 := cmpf .olt main_v4 main_v5
  let main_c_1 : IVec S_ 1 := constantI S_ 1 1#1
  let main_v7 : IVec S_ 1 := (fun x v => Host.reduce IntOp.andi x v reducesTo_S8x512x256_S_d0_1_2 h_S_) main_v6 main_c_1
  let main_v8 : IVec S_ 1 := andi main_v3 main_v7
  let main_v9 : FVec F S8x500000 .f32 := Host.absf main_arg2
  let main_cst_2 : FVec F S_ .f32 := constant S_ .f32 0x7F800000#32
  let main_v10 : FVec F S8x500000 .f32 := broadcastInDim S8x500000 ![] bcast_S_S8x500000 main_cst_2
  let main_v11 : IVec S8x500000 1 := cmpf .olt main_v9 main_v10
  let main_c_3 : IVec S_ 1 := constantI S_ 1 1#1
  let main_v12 : IVec S_ 1 := (fun x v => Host.reduce IntOp.andi x v reducesTo_S8x500000_S_d0_1 h_S_) main_v11 main_c_3
  let main_v13 : IVec S_ 1 := andi main_v8 main_v12
  main_v13
-- ==== Kernel.lean ====
abbrev S50000x512 : Shape := ⟨2, ![50000, 512]⟩
abbrev S8x512x256 : Shape := ⟨3, ![8, 512, 256]⟩
abbrev S8x500000 : Shape := ⟨2, ![8, 500000]⟩
abbrev S8x50000x256 : Shape := ⟨3, ![8, 50000, 256]⟩
abbrev S1000x512 : Shape := ⟨2, ![1000, 512]⟩
abbrev S8x1000x256 : Shape := ⟨3, ![8, 1000, 256]⟩
abbrev S1x512x256 : Shape := ⟨3, ![1, 512, 256]⟩
abbrev S512x256 : Shape := ⟨2, ![512, 256]⟩
abbrev S1000x256 : Shape := ⟨2, ![1000, 256]⟩
abbrev S1x1000x256 : Shape := ⟨3, ![1, 1000, 256]⟩
abbrev S_ : Shape := ⟨0, ![]⟩
abbrev S50000x256 : Shape := ⟨2, ![50000, 256]⟩
abbrev S1x50000x256 : Shape := ⟨3, ![1, 50000, 256]⟩
abbrev S1x500000 : Shape := ⟨2, ![1, 500000]⟩
abbrev S500000 : Shape := ⟨1, ![500000]⟩
abbrev S500000x1 : Shape := ⟨2, ![500000, 1]⟩
abbrev S500000x256 : Shape := ⟨2, ![500000, 256]⟩

abbrev nBuf : Space → Nat
  | .hbm => 213
  | .vmem => 5
  | .smem => 0
  | _ => 0

abbrev hbmTy0_0 (i : Nat) : BufTy := match i % 128 with
  | 0 => ⟨S50000x512, .f32⟩
  | 1 => ⟨S8x512x256, .f32⟩
  | 2 => ⟨S8x500000, .f32⟩
  | 3 => ⟨S8x500000, .i32⟩
  | 4 => ⟨S8x500000, .i32⟩
  | 5 => ⟨S50000x512, .bf16⟩
  | 6 => ⟨S8x512x256, .bf16⟩
  | 7 => ⟨S8x50000x256, .f32⟩
  | 8 => ⟨S_, .f32⟩
  | 9 => ⟨S50000x256, .f32⟩
  | 10 => ⟨S1x50000x256, .f32⟩
  | 11 => ⟨S50000x256, .f32⟩
  | 12 => ⟨S1x500000, .i32⟩
  | 13 => ⟨S500000, .i32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x256, .f32⟩
  | 23 => ⟨S1x500000, .f32⟩
  | 24 => ⟨S500000, .f32⟩
  | 25 => ⟨S500000x1, .f32⟩
  | 26 => ⟨S500000x256, .f32⟩
  | 27 => ⟨S500000x256, .f32⟩
  | 28 => ⟨S1x500000, .i32⟩
  | 29 => ⟨S500000, .i32⟩
  | 30 => ⟨S_, .f32⟩
  | 31 => ⟨S50000x256, .f32⟩
  | 32 => ⟨S500000x1, .i32⟩
  | 33 => ⟨S50000x256, .f32⟩
  | 34 => ⟨S50000x256, .f32⟩
  | 35 => ⟨S1x50000x256, .f32⟩
  | 36 => ⟨S50000x256, .f32⟩
  | 37 => ⟨S1x500000, .i32⟩
  | 38 => ⟨S500000, .i32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x256, .f32⟩
  | 48 => ⟨S1x500000, .f32⟩
  | 49 => ⟨S500000, .f32⟩
  | 50 => ⟨S500000x1, .f32⟩
  | 51 => ⟨S500000x256, .f32⟩
  | 52 => ⟨S500000x256, .f32⟩
  | 53 => ⟨S1x500000, .i32⟩
  | 54 => ⟨S500000, .i32⟩
  | 55 => ⟨S_, .f32⟩
  | 56 => ⟨S50000x256, .f32⟩
  | 57 => ⟨S500000x1, .i32⟩
  | 58 => ⟨S50000x256, .f32⟩
  | 59 => ⟨S50000x256, .f32⟩
  | 60 => ⟨S1x50000x256, .f32⟩
  | 61 => ⟨S50000x256, .f32⟩
  | 62 => ⟨S1x500000, .i32⟩
  | 63 => ⟨S500000, .i32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x256, .f32⟩
  | 73 => ⟨S1x500000, .f32⟩
  | 74 => ⟨S500000, .f32⟩
  | 75 => ⟨S500000x1, .f32⟩
  | 76 => ⟨S500000x256, .f32⟩
  | 77 => ⟨S500000x256, .f32⟩
  | 78 => ⟨S1x500000, .i32⟩
  | 79 => ⟨S500000, .i32⟩
  | 80 => ⟨S_, .f32⟩
  | 81 => ⟨S50000x256, .f32⟩
  | 82 => ⟨S500000x1, .i32⟩
  | 83 => ⟨S50000x256, .f32⟩
  | 84 => ⟨S50000x256, .f32⟩
  | 85 => ⟨S1x50000x256, .f32⟩
  | 86 => ⟨S50000x256, .f32⟩
  | 87 => ⟨S1x500000, .i32⟩
  | 88 => ⟨S500000, .i32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000x256, .f32⟩
  | 98 => ⟨S1x500000, .f32⟩
  | 99 => ⟨S500000, .f32⟩
  | 100 => ⟨S500000x1, .f32⟩
  | 101 => ⟨S500000x256, .f32⟩
  | 102 => ⟨S500000x256, .f32⟩
  | 103 => ⟨S1x500000, .i32⟩
  | 104 => ⟨S500000, .i32⟩
  | 105 => ⟨S_, .f32⟩
  | 106 => ⟨S50000x256, .f32⟩
  | 107 => ⟨S500000x1, .i32⟩
  | 108 => ⟨S50000x256, .f32⟩
  | 109 => ⟨S50000x256, .f32⟩
  | 110 => ⟨S1x50000x256, .f32⟩
  | 111 => ⟨S50000x256, .f32⟩
  | 112 => ⟨S1x500000, .i32⟩
  | 113 => ⟨S500000, .i32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x256, .f32⟩
  | 123 => ⟨S1x500000, .f32⟩
  | 124 => ⟨S500000, .f32⟩
  | 125 => ⟨S500000x1, .f32⟩
  | 126 => ⟨S500000x256, .f32⟩
  | 127 => ⟨S500000x256, .f32⟩
  | _ => ⟨S50000x512, .f32⟩

abbrev hbmTy0_1 (i : Nat) : BufTy := match i % 128 with
  | 0 => ⟨S1x500000, .i32⟩
  | 1 => ⟨S500000, .i32⟩
  | 2 => ⟨S_, .f32⟩
  | 3 => ⟨S50000x256, .f32⟩
  | 4 => ⟨S500000x1, .i32⟩
  | 5 => ⟨S50000x256, .f32⟩
  | 6 => ⟨S50000x256, .f32⟩
  | 7 => ⟨S1x50000x256, .f32⟩
  | 8 => ⟨S50000x256, .f32⟩
  | 9 => ⟨S1x500000, .i32⟩
  | 10 => ⟨S500000, .i32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000x256, .f32⟩
  | 20 => ⟨S1x500000, .f32⟩
  | 21 => ⟨S500000, .f32⟩
  | 22 => ⟨S500000x1, .f32⟩
  | 23 => ⟨S500000x256, .f32⟩
  | 24 => ⟨S500000x256, .f32⟩
  | 25 => ⟨S1x500000, .i32⟩
  | 26 => ⟨S500000, .i32⟩
  | 27 => ⟨S_, .f32⟩
  | 28 => ⟨S50000x256, .f32⟩
  | 29 => ⟨S500000x1, .i32⟩
  | 30 => ⟨S50000x256, .f32⟩
  | 31 => ⟨S50000x256, .f32⟩
  | 32 => ⟨S1x50000x256, .f32⟩
  | 33 => ⟨S50000x256, .f32⟩
  | 34 => ⟨S1x500000, .i32⟩
  | 35 => ⟨S500000, .i32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000x256, .f32⟩
  | 45 => ⟨S1x500000, .f32⟩
  | 46 => ⟨S500000, .f32⟩
  | 47 => ⟨S500000x1, .f32⟩
  | 48 => ⟨S500000x256, .f32⟩
  | 49 => ⟨S500000x256, .f32⟩
  | 50 => ⟨S1x500000, .i32⟩
  | 51 => ⟨S500000, .i32⟩
  | 52 => ⟨S_, .f32⟩
  | 53 => ⟨S50000x256, .f32⟩
  | 54 => ⟨S500000x1, .i32⟩
  | 55 => ⟨S50000x256, .f32⟩
  | 56 => ⟨S50000x256, .f32⟩
  | 57 => ⟨S1x50000x256, .f32⟩
  | 58 => ⟨S50000x256, .f32⟩
  | 59 => ⟨S1x500000, .i32⟩
  | 60 => ⟨S500000, .i32⟩
  | 61 => ⟨S_, .i32⟩
  | 62 => ⟨S500000, .i32⟩
  | 63 => ⟨S500000, .i1⟩
  | 64 => ⟨S_, .i32⟩
  | 65 => ⟨S500000, .i32⟩
  | 66 => ⟨S500000, .i32⟩
  | 67 => ⟨S500000, .i32⟩
  | 68 => ⟨S500000x1, .i32⟩
  | 69 => ⟨S500000x256, .f32⟩
  | 70 => ⟨S1x500000, .f32⟩
  | 71 => ⟨S500000, .f32⟩
  | 72 => ⟨S500000x1, .f32⟩
  | 73 => ⟨S500000x256, .f32⟩
  | 74 => ⟨S500000x256, .f32⟩
  | 75 => ⟨S1x500000, .i32⟩
  | 76 => ⟨S500000, .i32⟩
  | 77 => ⟨S_, .f32⟩
  | 78 => ⟨S50000x256, .f32⟩
  | 79 => ⟨S500000x1, .i32⟩
  | 80 => ⟨S50000x256, .f32⟩
  | 81 => ⟨S50000x256, .f32⟩
  | 82 => ⟨S_, .f32⟩
  | 83 => ⟨S50000x256, .f32⟩
  | 84 => ⟨S50000x256, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S1000x512, .bf16⟩
  | .local _ .vmem, ⟨1, _⟩ => ⟨S1000x512, .bf16⟩
  | .local _ .vmem, ⟨2, _⟩ => ⟨S8x512x256, .bf16⟩
  | .local _ .vmem, ⟨3, _⟩ => ⟨S8x1000x256, .f32⟩
  | .local _ .vmem, ⟨4, _⟩ => ⟨S8x1000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c_5 : Ref sig .tc := ⟨.hbm, 64, rfl⟩
abbrev main_v52 : Ref sig .tc := ⟨.hbm, 65, rfl⟩
abbrev main_v53 : Ref sig .tc := ⟨.hbm, 66, rfl⟩
abbrev main_c_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_c_8 : Ref sig .tc := ⟨.hbm, 89, rfl⟩
abbrev main_v74 : Ref sig .tc := ⟨.hbm, 90, rfl⟩
abbrev main_v75 : Ref sig .tc := ⟨.hbm, 91, rfl⟩
abbrev main_c_9 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_10 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_c_11 : Ref sig .tc := ⟨.hbm, 114, rfl⟩
abbrev main_v96 : Ref sig .tc := ⟨.hbm, 115, rfl⟩
abbrev main_v97 : Ref sig .tc := ⟨.hbm, 116, rfl⟩
abbrev main_c_12 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_cst_13 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_c_14 : Ref sig .tc := ⟨.hbm, 139, rfl⟩
abbrev main_v118 : Ref sig .tc := ⟨.hbm, 140, rfl⟩
abbrev main_v119 : Ref sig .tc := ⟨.hbm, 141, rfl⟩
abbrev main_c_15 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_cst_16 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_c_17 : Ref sig .tc := ⟨.hbm, 164, rfl⟩
abbrev main_v140 : Ref sig .tc := ⟨.hbm, 165, rfl⟩
abbrev main_v141 : Ref sig .tc := ⟨.hbm, 166, rfl⟩
abbrev main_c_18 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_cst_19 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_c_20 : Ref sig .tc := ⟨.hbm, 189, rfl⟩
abbrev main_v162 : Ref sig .tc := ⟨.hbm, 190, rfl⟩
abbrev main_v163 : Ref sig .tc := ⟨.hbm, 191, rfl⟩
abbrev main_c_21 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_cst_22 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_call0_cst : Ref sig .tc := ⟨.hbm, 210, rfl⟩
abbrev main_call0_v0 : Ref sig .tc := ⟨.hbm, 211, rfl⟩
abbrev main_v180 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S8x512x256_S1x512x256_0_0_0 : ∀ a, (![0, 0, 0] : Fin 3 → Nat) a + S1x512x256.size a ≤ S8x512x256.size a
  h_S1x512x256 : 0 < S1x512x256.numel
  shapeCasts_S1x512x256_S512x256 : S1x512x256.ShapeCasts S512x256
  inb_S8x1000x256_S1x1000x256_0_0_0 : ∀ a, (![0, 0, 0] : Fin 3 → Nat) a + S1x1000x256.size a ≤ S8x1000x256.size a
  h_S1x1000x256 : 0 < S1x1000x256.numel
  shapeCasts_S1x1000x256_S1000x256 : S1x1000x256.ShapeCasts S1000x256
  shapeCasts_S1000x256_S1x1000x256 : S1000x256.ShapeCasts S1x1000x256
  inb_S8x512x256_S1x512x256_1_0_0 : ∀ a, (![1, 0, 0] : Fin 3 → Nat) a + S1x512x256.size a ≤ S8x512x256.size a
  inb_S8x1000x256_S1x1000x256_1_0_0 : ∀ a, (![1, 0, 0] : Fin 3 → Nat) a + S1x1000x256.size a ≤ S8x1000x256.size a
  inb_S8x512x256_S1x512x256_2_0_0 : ∀ a, (![2, 0, 0] : Fin 3 → Nat) a + S1x512x256.size a ≤ S8x512x256.size a
  inb_S8x1000x256_S1x1000x256_2_0_0 : ∀ a, (![2, 0, 0] : Fin 3 → Nat) a + S1x1000x256.size a ≤ S8x1000x256.size a
  inb_S8x512x256_S1x512x256_3_0_0 : ∀ a, (![3, 0, 0] : Fin 3 → Nat) a + S1x512x256.size a ≤ S8x512x256.size a
  inb_S8x1000x256_S1x1000x256_3_0_0 : ∀ a, (![3, 0, 0] : Fin 3 → Nat) a + S1x1000x256.size a ≤ S8x1000x256.size a
  inb_S8x512x256_S1x512x256_4_0_0 : ∀ a, (![4, 0, 0] : Fin 3 → Nat) a + S1x512x256.size a ≤ S8x512x256.size a
  inb_S8x1000x256_S1x1000x256_4_0_0 : ∀ a, (![4, 0, 0] : Fin 3 → Nat) a + S1x1000x256.size a ≤ S8x1000x256.size a
  inb_S8x512x256_S1x512x256_5_0_0 : ∀ a, (![5, 0, 0] : Fin 3 → Nat) a + S1x512x256.size a ≤ S8x512x256.size a
  inb_S8x1000x256_S1x1000x256_5_0_0 : ∀ a, (![5, 0, 0] : Fin 3 → Nat) a + S1x1000x256.size a ≤ S8x1000x256.size a
  inb_S8x512x256_S1x512x256_6_0_0 : ∀ a, (![6, 0, 0] : Fin 3 → Nat) a + S1x512x256.size a ≤ S8x512x256.size a
  inb_S8x1000x256_S1x1000x256_6_0_0 : ∀ a, (![6, 0, 0] : Fin 3 → Nat) a + S1x1000x256.size a ≤ S8x1000x256.size a
  inb_S8x512x256_S1x512x256_7_0_0 : ∀ a, (![7, 0, 0] : Fin 3 → Nat) a + S1x512x256.size a ≤ S8x512x256.size a
  inb_S8x1000x256_S1x1000x256_7_0_0 : ∀ a, (![7, 0, 0] : Fin 3 → Nat) a + S1x1000x256.size a ≤ S8x1000x256.size a
  bcast_S_S50000x256 : S_.BroadcastsInDim S50000x256 (![] : Fin 0 → Fin S50000x256.rank)
  slices_S8x50000x256_S1x50000x256_0_0_0 : S8x50000x256.Slices ![0, 0, 0] S1x50000x256
  shapeCasts_S1x50000x256_S50000x256 : S1x50000x256.ShapeCasts S50000x256
  slices_S8x500000_S1x500000_0_0 : S8x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  slices_S8x50000x256_S1x50000x256_1_0_0 : S8x50000x256.Slices ![1, 0, 0] S1x50000x256
  slices_S8x500000_S1x500000_1_0 : S8x500000.Slices ![1, 0] S1x500000
  slices_S8x50000x256_S1x50000x256_2_0_0 : S8x50000x256.Slices ![2, 0, 0] S1x50000x256
  slices_S8x500000_S1x500000_2_0 : S8x500000.Slices ![2, 0] S1x500000
  slices_S8x50000x256_S1x50000x256_3_0_0 : S8x50000x256.Slices ![3, 0, 0] S1x50000x256
  slices_S8x500000_S1x500000_3_0 : S8x500000.Slices ![3, 0] S1x500000
  slices_S8x50000x256_S1x50000x256_4_0_0 : S8x50000x256.Slices ![4, 0, 0] S1x50000x256
  slices_S8x500000_S1x500000_4_0 : S8x500000.Slices ![4, 0] S1x500000
  slices_S8x50000x256_S1x50000x256_5_0_0 : S8x50000x256.Slices ![5, 0, 0] S1x50000x256
  slices_S8x500000_S1x500000_5_0 : S8x500000.Slices ![5, 0] S1x500000
  slices_S8x50000x256_S1x50000x256_6_0_0 : S8x50000x256.Slices ![6, 0, 0] S1x50000x256
  slices_S8x500000_S1x500000_6_0 : S8x500000.Slices ![6, 0] S1x500000
  slices_S8x50000x256_S1x50000x256_7_0_0 : S8x50000x256.Slices ![7, 0, 0] S1x50000x256
  slices_S8x500000_S1x500000_7_0 : S8x500000.Slices ![7, 0] S1x500000
  dot_S1000x512_S512x256_S1000x256_1_0_0_1_n_n_wf : DotDims.WF S1000x512 S512x256 S1000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .bf16 = 32 ∨ (Rect.block (s := S50000x512) S1000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512x256.size a ≤ S8x512x256.size a
  hwx0_1 : ∀ i : grid0.Coords, EltTy.bits .bf16 = 32 ∨ (Rect.block (s := S8x512x256) S8x512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1000x256.size a ≤ S8x50000x256.size a
  hwx0_2 : ∀ i : grid0.Coords, EltTy.bits .f32 = 32 ∨ (Rect.block (s := S8x50000x256) S8x1000x256.size (cc0_transform_2 i) (hinb0_2 i)).WholeWords (EltTy.packing .f32)

variable [Facts₀]

def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf

abbrev win0_0 : Pipeline.Window sig grid0 :=
  Pipeline.Window.ofSpec (Memref.whole main_v0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S8x512x256 : Shape := ⟨3, ![8, 512, 256]⟩
abbrev S8x500000 : Shape := ⟨2, ![8, 500000]⟩
abbrev S_ : Shape := ⟨0, ![]⟩
abbrev S50000x256 : Shape := ⟨2, ![50000, 256]⟩
abbrev S1x512x256 : Shape := ⟨3, ![1, 512, 256]⟩
abbrev S512x256 : Shape := ⟨2, ![512, 256]⟩
abbrev S1x500000 : Shape := ⟨2, ![1, 500000]⟩
abbrev S500000 : Shape := ⟨1, ![500000]⟩
abbrev S500000x1 : Shape := ⟨2, ![500000, 1]⟩
abbrev S500000x256 : Shape := ⟨2, ![500000, 256]⟩

abbrev nBuf : Space → Nat
  | .hbm => 218
  | .vmem => 0
  | .smem => 0
  | _ => 0

abbrev hbmTy0_0 (i : Nat) : BufTy := match i % 128 with
  | 0 => ⟨S50000x512, .f32⟩
  | 1 => ⟨S8x512x256, .f32⟩
  | 2 => ⟨S8x500000, .f32⟩
  | 3 => ⟨S8x500000, .i32⟩
  | 4 => ⟨S8x500000, .i32⟩
  | 5 => ⟨S_, .f32⟩
  | 6 => ⟨S50000x256, .f32⟩
  | 7 => ⟨S1x512x256, .f32⟩
  | 8 => ⟨S512x256, .f32⟩
  | 9 => ⟨S50000x256, .f32⟩
  | 10 => ⟨S1x500000, .i32⟩
  | 11 => ⟨S500000, .i32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x256, .f32⟩
  | 21 => ⟨S1x500000, .f32⟩
  | 22 => ⟨S500000, .f32⟩
  | 23 => ⟨S500000x1, .f32⟩
  | 24 => ⟨S500000x256, .f32⟩
  | 25 => ⟨S500000x256, .f32⟩
  | 26 => ⟨S1x500000, .i32⟩
  | 27 => ⟨S500000, .i32⟩
  | 28 => ⟨S_, .f32⟩
  | 29 => ⟨S50000x256, .f32⟩
  | 30 => ⟨S500000x1, .i32⟩
  | 31 => ⟨S50000x256, .f32⟩
  | 32 => ⟨S50000x256, .f32⟩
  | 33 => ⟨S1x512x256, .f32⟩
  | 34 => ⟨S512x256, .f32⟩
  | 35 => ⟨S50000x256, .f32⟩
  | 36 => ⟨S1x500000, .i32⟩
  | 37 => ⟨S500000, .i32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x256, .f32⟩
  | 47 => ⟨S1x500000, .f32⟩
  | 48 => ⟨S500000, .f32⟩
  | 49 => ⟨S500000x1, .f32⟩
  | 50 => ⟨S500000x256, .f32⟩
  | 51 => ⟨S500000x256, .f32⟩
  | 52 => ⟨S1x500000, .i32⟩
  | 53 => ⟨S500000, .i32⟩
  | 54 => ⟨S_, .f32⟩
  | 55 => ⟨S50000x256, .f32⟩
  | 56 => ⟨S500000x1, .i32⟩
  | 57 => ⟨S50000x256, .f32⟩
  | 58 => ⟨S50000x256, .f32⟩
  | 59 => ⟨S1x512x256, .f32⟩
  | 60 => ⟨S512x256, .f32⟩
  | 61 => ⟨S50000x256, .f32⟩
  | 62 => ⟨S1x500000, .i32⟩
  | 63 => ⟨S500000, .i32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x256, .f32⟩
  | 73 => ⟨S1x500000, .f32⟩
  | 74 => ⟨S500000, .f32⟩
  | 75 => ⟨S500000x1, .f32⟩
  | 76 => ⟨S500000x256, .f32⟩
  | 77 => ⟨S500000x256, .f32⟩
  | 78 => ⟨S1x500000, .i32⟩
  | 79 => ⟨S500000, .i32⟩
  | 80 => ⟨S_, .f32⟩
  | 81 => ⟨S50000x256, .f32⟩
  | 82 => ⟨S500000x1, .i32⟩
  | 83 => ⟨S50000x256, .f32⟩
  | 84 => ⟨S50000x256, .f32⟩
  | 85 => ⟨S1x512x256, .f32⟩
  | 86 => ⟨S512x256, .f32⟩
  | 87 => ⟨S50000x256, .f32⟩
  | 88 => ⟨S1x500000, .i32⟩
  | 89 => ⟨S500000, .i32⟩
  | 90 => ⟨S_, .i32⟩
  | 91 => ⟨S500000, .i32⟩
  | 92 => ⟨S500000, .i1⟩
  | 93 => ⟨S_, .i32⟩
  | 94 => ⟨S500000, .i32⟩
  | 95 => ⟨S500000, .i32⟩
  | 96 => ⟨S500000, .i32⟩
  | 97 => ⟨S500000x1, .i32⟩
  | 98 => ⟨S500000x256, .f32⟩
  | 99 => ⟨S1x500000, .f32⟩
  | 100 => ⟨S500000, .f32⟩
  | 101 => ⟨S500000x1, .f32⟩
  | 102 => ⟨S500000x256, .f32⟩
  | 103 => ⟨S500000x256, .f32⟩
  | 104 => ⟨S1x500000, .i32⟩
  | 105 => ⟨S500000, .i32⟩
  | 106 => ⟨S_, .f32⟩
  | 107 => ⟨S50000x256, .f32⟩
  | 108 => ⟨S500000x1, .i32⟩
  | 109 => ⟨S50000x256, .f32⟩
  | 110 => ⟨S50000x256, .f32⟩
  | 111 => ⟨S1x512x256, .f32⟩
  | 112 => ⟨S512x256, .f32⟩
  | 113 => ⟨S50000x256, .f32⟩
  | 114 => ⟨S1x500000, .i32⟩
  | 115 => ⟨S500000, .i32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000x256, .f32⟩
  | 125 => ⟨S1x500000, .f32⟩
  | 126 => ⟨S500000, .f32⟩
  | 127 => ⟨S500000x1, .f32⟩
  | _ => ⟨S50000x512, .f32⟩

abbrev hbmTy0_1 (i : Nat) : BufTy := match i % 128 with
  | 0 => ⟨S500000x256, .f32⟩
  | 1 => ⟨S500000x256, .f32⟩
  | 2 => ⟨S1x500000, .i32⟩
  | 3 => ⟨S500000, .i32⟩
  | 4 => ⟨S_, .f32⟩
  | 5 => ⟨S50000x256, .f32⟩
  | 6 => ⟨S500000x1, .i32⟩
  | 7 => ⟨S50000x256, .f32⟩
  | 8 => ⟨S50000x256, .f32⟩
  | 9 => ⟨S1x512x256, .f32⟩
  | 10 => ⟨S512x256, .f32⟩
  | 11 => ⟨S50000x256, .f32⟩
  | 12 => ⟨S1x500000, .i32⟩
  | 13 => ⟨S500000, .i32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x256, .f32⟩
  | 23 => ⟨S1x500000, .f32⟩
  | 24 => ⟨S500000, .f32⟩
  | 25 => ⟨S500000x1, .f32⟩
  | 26 => ⟨S500000x256, .f32⟩
  | 27 => ⟨S500000x256, .f32⟩
  | 28 => ⟨S1x500000, .i32⟩
  | 29 => ⟨S500000, .i32⟩
  | 30 => ⟨S_, .f32⟩
  | 31 => ⟨S50000x256, .f32⟩
  | 32 => ⟨S500000x1, .i32⟩
  | 33 => ⟨S50000x256, .f32⟩
  | 34 => ⟨S50000x256, .f32⟩
  | 35 => ⟨S1x512x256, .f32⟩
  | 36 => ⟨S512x256, .f32⟩
  | 37 => ⟨S50000x256, .f32⟩
  | 38 => ⟨S1x500000, .i32⟩
  | 39 => ⟨S500000, .i32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x256, .f32⟩
  | 49 => ⟨S1x500000, .f32⟩
  | 50 => ⟨S500000, .f32⟩
  | 51 => ⟨S500000x1, .f32⟩
  | 52 => ⟨S500000x256, .f32⟩
  | 53 => ⟨S500000x256, .f32⟩
  | 54 => ⟨S1x500000, .i32⟩
  | 55 => ⟨S500000, .i32⟩
  | 56 => ⟨S_, .f32⟩
  | 57 => ⟨S50000x256, .f32⟩
  | 58 => ⟨S500000x1, .i32⟩
  | 59 => ⟨S50000x256, .f32⟩
  | 60 => ⟨S50000x256, .f32⟩
  | 61 => ⟨S1x512x256, .f32⟩
  | 62 => ⟨S512x256, .f32⟩
  | 63 => ⟨S50000x256, .f32⟩
  | 64 => ⟨S1x500000, .i32⟩
  | 65 => ⟨S500000, .i32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000x256, .f32⟩
  | 75 => ⟨S1x500000, .f32⟩
  | 76 => ⟨S500000, .f32⟩
  | 77 => ⟨S500000x1, .f32⟩
  | 78 => ⟨S500000x256, .f32⟩
  | 79 => ⟨S500000x256, .f32⟩
  | 80 => ⟨S1x500000, .i32⟩
  | 81 => ⟨S500000, .i32⟩
  | 82 => ⟨S_, .f32⟩
  | 83 => ⟨S50000x256, .f32⟩
  | 84 => ⟨S500000x1, .i32⟩
  | 85 => ⟨S50000x256, .f32⟩
  | 86 => ⟨S50000x256, .f32⟩
  | 87 => ⟨S_, .f32⟩
  | 88 => ⟨S50000x256, .f32⟩
  | 89 => ⟨S50000x256, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c_5 : Ref sig .tc := ⟨.hbm, 64, rfl⟩
abbrev main_v52 : Ref sig .tc := ⟨.hbm, 65, rfl⟩
abbrev main_v53 : Ref sig .tc := ⟨.hbm, 66, rfl⟩
abbrev main_c_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_c_8 : Ref sig .tc := ⟨.hbm, 90, rfl⟩
abbrev main_v75 : Ref sig .tc := ⟨.hbm, 91, rfl⟩
abbrev main_v76 : Ref sig .tc := ⟨.hbm, 92, rfl⟩
abbrev main_c_9 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_10 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_c_11 : Ref sig .tc := ⟨.hbm, 116, rfl⟩
abbrev main_v98 : Ref sig .tc := ⟨.hbm, 117, rfl⟩
abbrev main_v99 : Ref sig .tc := ⟨.hbm, 118, rfl⟩
abbrev main_c_12 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_13 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_c_14 : Ref sig .tc := ⟨.hbm, 142, rfl⟩
abbrev main_v121 : Ref sig .tc := ⟨.hbm, 143, rfl⟩
abbrev main_v122 : Ref sig .tc := ⟨.hbm, 144, rfl⟩
abbrev main_c_15 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_cst_16 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_c_17 : Ref sig .tc := ⟨.hbm, 168, rfl⟩
abbrev main_v144 : Ref sig .tc := ⟨.hbm, 169, rfl⟩
abbrev main_v145 : Ref sig .tc := ⟨.hbm, 170, rfl⟩
abbrev main_c_18 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_19 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_c_20 : Ref sig .tc := ⟨.hbm, 194, rfl⟩
abbrev main_v167 : Ref sig .tc := ⟨.hbm, 195, rfl⟩
abbrev main_v168 : Ref sig .tc := ⟨.hbm, 196, rfl⟩
abbrev main_c_21 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_cst_22 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_call0_cst : Ref sig .tc := ⟨.hbm, 215, rfl⟩
abbrev main_call0_v0 : Ref sig .tc := ⟨.hbm, 216, rfl⟩
abbrev main_v185 : Ref sig .tc := ⟨.hbm, 217, rfl⟩

abbrev nD : Nat := 1
abbrev τ : Topo := Topo.v7x

variable {F : FTy → Type} [FloatOps F]

class Facts₀ : Prop where
  bcast_S_S50000x256 : S_.BroadcastsInDim S50000x256 (![] : Fin 0 → Fin S50000x256.rank)
  slices_S8x512x256_S1x512x256_0_0_0 : S8x512x256.Slices ![0, 0, 0] S1x512x256
  shapeCasts_S1x512x256_S512x256 : S1x512x256.ShapeCasts S512x256
  slices_S8x500000_S1x500000_0_0 : S8x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  slices_S8x512x256_S1x512x256_1_0_0 : S8x512x256.Slices ![1, 0, 0] S1x512x256
  slices_S8x500000_S1x500000_1_0 : S8x500000.Slices ![1, 0] S1x500000
  slices_S8x512x256_S1x512x256_2_0_0 : S8x512x256.Slices ![2, 0, 0] S1x512x256
  slices_S8x500000_S1x500000_2_0 : S8x500000.Slices ![2, 0] S1x500000
  slices_S8x512x256_S1x512x256_3_0_0 : S8x512x256.Slices ![3, 0, 0] S1x512x256
  slices_S8x500000_S1x500000_3_0 : S8x500000.Slices ![3, 0] S1x500000
  slices_S8x512x256_S1x512x256_4_0_0 : S8x512x256.Slices ![4, 0, 0] S1x512x256
  slices_S8x500000_S1x500000_4_0 : S8x500000.Slices ![4, 0] S1x500000
  slices_S8x512x256_S1x512x256_5_0_0 : S8x512x256.Slices ![5, 0, 0] S1x512x256
  slices_S8x500000_S1x500000_5_0 : S8x500000.Slices ![5, 0] S1x500000
  slices_S8x512x256_S1x512x256_6_0_0 : S8x512x256.Slices ![6, 0, 0] S1x512x256
  slices_S8x500000_S1x500000_6_0 : S8x500000.Slices ![6, 0] S1x500000
  slices_S8x512x256_S1x512x256_7_0_0 : S8x512x256.Slices ![7, 0, 0] S1x512x256
  slices_S8x500000_S1x500000_7_0 : S8x500000.Slices ![7, 0] S1x500000
  dot_S50000x512_S512x256_S50000x256_1_0_0_1_n_n_wf : DotDims.WF S50000x512 S512x256 S50000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf

class Facts : Prop extends Facts₀ where

variable [Facts]
-- ==== Proof.K.Body.lean ====
/-
  The kernel body of the relation projection, run once on whole staging buffers.

  One grid point holds a block of 1000 rows of the (rounded) node features `x` and all 8 relation weight
  matrices. The body reads the row block once, and for each relation `r = 0 … 7` reads the matrix `W r`,
  multiplies the row block by it into a zero accumulator and stores the 1000 × 256 product as slab `r` of the
  8 × 1000 × 256 output block (the load of the output slab that precedes each store is never used). The eight
  slabs tile the output block, so after the body the output buffer is one function of the two input buffers:
  the canonical reading of the eight stores, `projBlock`.
-/
import proofs.«125933_j16982300688782_1_alg».proof.Proof.Gen.Kernel.Launch
import proofs.«125933_j16982300688782_1_alg».proof.Proof.Gen.Kernel.Skeleton
import proofs.«125933_j16982300688782_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- The whole 1000 × 512 row block. -/
abbrev rX : Rect S1000x512 := Rect.unit (s := S1000x512) ![0, 0] S1000x512.size inb_S1000x512_S1000x512_0_0
/-- Relation 0's 512 × 256 weight matrix inside the 8 × 512 × 256 buffer. -/
abbrev rW0 : Rect S8x512x256 := Rect.unit (s := S8x512x256) ![0, 0, 0] S1x512x256.size inb_S8x512x256_S1x512x256_0_0_0
/-- Relation 0's 1000 × 256 slab of the 8 × 1000 × 256 output block. -/
abbrev rO0 : Rect S8x1000x256 := Rect.unit (s := S8x1000x256) ![0, 0, 0] S1x1000x256.size inb_S8x1000x256_S1x1000x256_0_0_0
/-- Relation 1's 512 × 256 weight matrix inside the 8 × 512 × 256 buffer. -/
abbrev rW1 : Rect S8x512x256 := Rect.unit (s := S8x512x256) ![1, 0, 0] S1x512x256.size inb_S8x512x256_S1x512x256_1_0_0
/-- Relation 1's 1000 × 256 slab of the 8 × 1000 × 256 output block. -/
abbrev rO1 : Rect S8x1000x256 := Rect.unit (s := S8x1000x256) ![1, 0, 0] S1x1000x256.size inb_S8x1000x256_S1x1000x256_1_0_0
/-- Relation 2's 512 × 256 weight matrix inside the 8 × 512 × 256 buffer. -/
abbrev rW2 : Rect S8x512x256 := Rect.unit (s := S8x512x256) ![2, 0, 0] S1x512x256.size inb_S8x512x256_S1x512x256_2_0_0
/-- Relation 2's 1000 × 256 slab of the 8 × 1000 × 256 output block. -/
abbrev rO2 : Rect S8x1000x256 := Rect.unit (s := S8x1000x256) ![2, 0, 0] S1x1000x256.size inb_S8x1000x256_S1x1000x256_2_0_0
/-- Relation 3's 512 × 256 weight matrix inside the 8 × 512 × 256 buffer. -/
abbrev rW3 : Rect S8x512x256 := Rect.unit (s := S8x512x256) ![3, 0, 0] S1x512x256.size inb_S8x512x256_S1x512x256_3_0_0
/-- Relation 3's 1000 × 256 slab of the 8 × 1000 × 256 output block. -/
abbrev rO3 : Rect S8x1000x256 := Rect.unit (s := S8x1000x256) ![3, 0, 0] S1x1000x256.size inb_S8x1000x256_S1x1000x256_3_0_0
/-- Relation 4's 512 × 256 weight matrix inside the 8 × 512 × 256 buffer. -/
abbrev rW4 : Rect S8x512x256 := Rect.unit (s := S8x512x256) ![4, 0, 0] S1x512x256.size inb_S8x512x256_S1x512x256_4_0_0
/-- Relation 4's 1000 × 256 slab of the 8 × 1000 × 256 output block. -/
abbrev rO4 : Rect S8x1000x256 := Rect.unit (s := S8x1000x256) ![4, 0, 0] S1x1000x256.size inb_S8x1000x256_S1x1000x256_4_0_0
/-- Relation 5's 512 × 256 weight matrix inside the 8 × 512 × 256 buffer. -/
abbrev rW5 : Rect S8x512x256 := Rect.unit (s := S8x512x256) ![5, 0, 0] S1x512x256.size inb_S8x512x256_S1x512x256_5_0_0
/-- Relation 5's 1000 × 256 slab of the 8 × 1000 × 256 output block. -/
abbrev rO5 : Rect S8x1000x256 := Rect.unit (s := S8x1000x256) ![5, 0, 0] S1x1000x256.size inb_S8x1000x256_S1x1000x256_5_0_0
/-- Relation 6's 512 × 256 weight matrix inside the 8 × 512 × 256 buffer. -/
abbrev rW6 : Rect S8x512x256 := Rect.unit (s := S8x512x256) ![6, 0, 0] S1x512x256.size inb_S8x512x256_S1x512x256_6_0_0
/-- Relation 6's 1000 × 256 slab of the 8 × 1000 × 256 output block. -/
abbrev rO6 : Rect S8x1000x256 := Rect.unit (s := S8x1000x256) ![6, 0, 0] S1x1000x256.size inb_S8x1000x256_S1x1000x256_6_0_0
/-- Relation 7's 512 × 256 weight matrix inside the 8 × 512 × 256 buffer. -/
abbrev rW7 : Rect S8x512x256 := Rect.unit (s := S8x512x256) ![7, 0, 0] S1x512x256.size inb_S8x512x256_S1x512x256_7_0_0
/-- Relation 7's 1000 × 256 slab of the 8 × 1000 × 256 output block. -/
abbrev rO7 : Rect S8x1000x256 := Rect.unit (s := S8x1000x256) ![7, 0, 0] S1x1000x256.size inb_S8x1000x256_S1x1000x256_7_0_0

/-! ## What the body leaves in the output block -/

/-- The output block after the body, from the two input blocks: the eight stores as pieces, last store first; slab
    `r` is the product of the row block with relation `r`'s matrix into a zero accumulator. -/
def projBlock (x0 : Vec F S1000x512 .bf16) (x1 : Vec F S8x512x256 .bf16) : Vec F S8x1000x256 .f32 :=
  View.canon [⟨rO7, k0_pay4 (k0_pay5 (View.ld x0 rX)) (View.ld x1 rW7)⟩,
    ⟨rO6, k0_pay3 (k0_pay5 (View.ld x0 rX)) (View.ld x1 rW6)⟩,
    ⟨rO5, k0_pay2 (k0_pay5 (View.ld x0 rX)) (View.ld x1 rW5)⟩,
    ⟨rO4, k0_pay1 (k0_pay5 (View.ld x0 rX)) (View.ld x1 rW4)⟩,
    ⟨rO3, k0_pay9 (View.ld x0 rX) (View.ld x1 rW3)⟩,
    ⟨rO2, k0_pay8 (View.ld x0 rX) (View.ld x1 rW2)⟩,
    ⟨rO1, k0_pay7 (View.ld x0 rX) (View.ld x1 rW1)⟩,
    ⟨rO0, k0_pay6 (View.ld x0 rX) (View.ld x1 rW0)⟩]

/-- The eight slabs tile the output block, so every index of the block lies in one of them. -/
theorem slabs_cover (p7 p6 p5 p4 p3 p2 p1 p0 : Vec F S1x1000x256 .f32) (y : S8x1000x256.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] :
      List (View.Piece (Elt F) S8x1000x256 .f32)), y ∈ pc.1.set :=
  View.cover_of_tiled [⟨rO7, p7⟩, ⟨rO6, p6⟩, ⟨rO5, p5⟩, ⟨rO4, p4⟩, ⟨rO3, p3⟩, ⟨rO2, p2⟩, ⟨rO1, p1⟩, ⟨rO0, p0⟩]
    S1x1000x256.size (by rfl) y

/-! ## The body's triple -/

set_option maxHeartbeats 4000000 in
/-- The body on whole staging buffers — the two inputs' at contents `x0`, `x1`, the output's at anything — runs to its
    end without a fault, leaves the inputs' buffers as they were and the output's at `projBlock x0 x1`. -/
theorem sound_kernel (c : Dev nD) (E : Set ℕ) (i : grid0.Coords)
    (arg1 : Memref sig .tc .vmem S1000x512 .bf16) (harg1 : arg1.IsWhole)
    (arg2 : Memref sig .tc .vmem S8x512x256 .bf16) (harg2 : arg2.IsWhole)
    (arg3 : Memref sig .tc .vmem S8x1000x256 .f32) (harg3 : arg3.IsWhole)
    (x0 : Vec F S1000x512 .bf16) (x1 : Vec F S8x512x256 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (projBlock x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  simp only [k0_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (slabs_cover _ _ _ _ _ _ _ _)

end Cert.Kernel.Hand

end
-- ==== Proof.K.Tail.lean ====
/-
  The host lines around the relation projection's one region.

  @main is two host lines (the two inputs rounded for the matrix unit), the region, and then 205 host lines: per
  relation a slice of the projected features, the gather of source rows, the scaling by edge weights, the
  scatter-add at destination rows and the running sum, and last the rectifier. This module records what the launch
  theorem needs of those lines and nothing of what they compute: they allocate nothing, they touch only buffers the
  region leaves alone or the region's arrays, and none of them writes an argument array or an array the region stages.
  Every line writes exactly one buffer, its own result, which is none of those eight.
-/
import proofs.«125933_j16982300688782_1_alg».proof.Proof.Gen.Kernel.Launch
import proofs.«125933_j16982300688782_1_alg».proof.Proof.Gen.Kernel.Skeleton
import proofs.«125933_j16982300688782_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents after the two rounding lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The lines allocate nothing -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-! ## No line writes an argument array or an array the region stages -/

/-- A reference outside a list is, as a device buffer, none of the list's. -/
theorem kept_ne {L : List (Ref sig .tc)} {y : Ref sig .tc} (h : y ∉ L) :
    ∀ r ∈ L, ¬ Proc.devRef (τ := τ) .tc r = Proc.devRef .tc y :=
  fun r hr e => h (Proc.devRef_injective _ e ▸ hr)

/-- The five argument arrays and the three arrays the region's windows stage. -/
abbrev keptRefs : List (Ref sig .tc) := [main_arg0, main_arg1, main_arg2, main_arg3, main_arg4, main_v0, main_v1, main_v2]

set_option maxHeartbeats 40000000 in
/-- Each of the 202 lines after the region writes its own result buffer, which is none of the eight. -/
theorem hostOps1_keeps : (hostOps1 : List (HloOp τ sig (Elt F))).Forall fun op =>
    ∀ r ∈ keptRefs, Proc.devRef (τ := τ) .tc r ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact kept_ne (by decide)

/-- So do the rectifier's three lines. -/
theorem hostOps1_1_keeps : (hostOps1_1 : List (HloOp τ sig (Elt F))).Forall fun op =>
    ∀ r ∈ keptRefs, Proc.devRef (τ := τ) .tc r ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact kept_ne (by decide)

/-- The two rounding lines write neither an argument array nor the region's output array. -/
theorem hostOps0_keeps : (hostOps0 : List (HloOp τ sig (Elt F))).Forall fun op =>
    ∀ r ∈ ([main_arg0, main_arg1, main_arg2, main_arg3, main_arg4, main_v2] : List (Ref sig .tc)), Proc.devRef (τ := τ) .tc r ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact kept_ne (by decide)

/-- A kept buffer after all the later lines holds what it held before them. -/
theorem tail_keeps (W : Valuation τ sig (Elt F)) (r : Ref sig .tc) (hr : r ∈ keptRefs) :
    StableHlo.after (List.flatten [hostOps1, hostOps1_1]) W (Proc.devRef .tc r) = W (Proc.devRef .tc r) := by
  refine StableHlo.after_of_forall_not_mem _ _ fun op hop => ?_
  simp only [List.flatten_cons, List.flatten_nil, List.append_nil, List.mem_append] at hop
  rcases hop with hop | hop
  · exact (List.forall_iff_forall_mem.mp hostOps1_keeps) op hop r hr
  · exact (List.forall_iff_forall_mem.mp hostOps1_1_keeps) op hop r hr

/-! ## @main around the region -/

set_option maxRecDepth 400000 in
/-- @main is the rounding lines, the region, and the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) (fun c => by
      rw [main_chain c]
      simp only [List.map_cons, List.map_nil, List.cons_append, List.nil_append])

/-- The later lines touch the region's arrays and the buffers that bypass the region only. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)

/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- And they write no array of the region. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop w
  have hw : Pipeline.arrRef spec0 w ∈ (keptRefs : List (Ref sig .tc)) := by
    fin_cases w
    · show main_v0 ∈ _; simp only [keptRefs, List.mem_cons, true_or, or_true]
    · show main_v1 ∈ _; simp only [keptRefs, List.mem_cons, true_or, or_true]
    · show main_v2 ∈ _; simp only [keptRefs, List.mem_cons, true_or, or_true]
  simp only [List.mem_cons, List.mem_nil_iff, or_false] at hops
  rcases hops with rfl | rfl
  · exact (List.forall_iff_forall_mem.mp hostOps1_keeps) op hop _ hw
  · exact (List.forall_iff_forall_mem.mp hostOps1_1_keeps) op hop _ hw

/-! ## The argument arrays, before and after -/

/-- No rounding line writes an argument array or the output array: the region finds each as launched. -/
theorem V_kept (c : Dev nD) (r : Ref sig .tc)
    (hr : r ∈ ([main_arg0, main_arg1, main_arg2, main_arg3, main_arg4, main_v2] : List (Ref sig .tc))) :
    V m c r = m ((c : Thread nD τ).loc r) :=
  StableHlo.after_of_forall_not_mem (b := Proc.devRef .tc r) _ _ (by
    simp only [List.flatten_cons, List.flatten_nil, List.append_nil]
    exact fun op hop => (List.forall_iff_forall_mem.mp hostOps0_keeps) op hop r hr)

/-- An argument array after the whole program is as launched: no later line writes it, the region stages none of
    them, and no rounding line writes it. -/
theorem W_arg (dats : (p : Fin _) → (c : Dev nD) → Dat τ (Elt F) Unit ℕ (UR sig nD τ) ℕ (cfgs p) c) (c : Dev nD) (r : Ref sig .tc)
    (hr : r ∈ ([main_arg0, main_arg1, main_arg2, main_arg3, main_arg4] : List (Ref sig .tc))) :
    Pipeline.afterTail₀ cfgs dats 0 (V0 m) [hostOps1, hostOps1_1] c r = m ((c : Thread nD τ).loc r) := by
  have hk : r ∈ (keptRefs : List (Ref sig .tc)) := by
    simp only [List.mem_cons, List.not_mem_nil, or_false] at hr
    rcases hr with rfl | rfl | rfl | rfl | rfl <;> simp only [keptRefs, List.mem_cons, true_or, or_true]
  have hne : ∀ w, Pipeline.arrRef spec0 w ≠ r := by
    simp only [List.mem_cons, List.not_mem_nil, or_false] at hr
    rcases hr with rfl | rfl | rfl | rfl | rfl <;> exact (by decide)
  unfold Pipeline.afterTail₀
  rw [tail_keeps _ r hk, Pipeline.withArrays_of_ne _ c (V0 m c) _ r hne]
  exact V_kept m c r (by
    simp only [List.mem_cons, List.not_mem_nil, or_false] at hr ⊢
    rcases hr with rfl | rfl | rfl | rfl | rfl <;> simp only [true_or, or_true])

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window's current staging buffer holds its block at every point (it is fetched at every point), for any
    proof data whose array is the region-entry one and whose body leaves the block in place. -/
theorem before_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's current staging buffer holds its one block at every point: fetched at the first point only,
    and at the others the block index has not moved. -/
theorem before_weights_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the launch theorem's post gives the frame
    claim's post: each argument array ends as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_arg m dats c main_arg0 (by simp only [List.mem_cons, true_or, or_true])),
     ((h c).2 main_arg1 (Pipeline.mem_restRefs_of main_arg1 (by decide) (by decide))).trans (W_arg m dats c main_arg1 (by simp only [List.mem_cons, true_or, or_true])),
     ((h c).2 main_arg2 (Pipeline.mem_restRefs_of main_arg2 (by decide) (by decide))).trans (W_arg m dats c main_arg2 (by simp only [List.mem_cons, true_or, or_true])),
     ((h c).2 main_arg3 (Pipeline.mem_restRefs_of main_arg3 (by decide) (by decide))).trans (W_arg m dats c main_arg3 (by simp only [List.mem_cons, true_or, or_true])),
     ((h c).2 main_arg4 (Pipeline.mem_restRefs_of main_arg4 (by decide) (by decide))).trans (W_arg m dats c main_arg4 (by simp only [List.mem_cons, true_or, or_true]))⟩) h

end Cert.Kernel.Hand

end
-- ==== Proof.K.Frame.lean ====
/-
  The run of the relation projection's program and its frame.

  The proof data of the one region: each window's array is what the region finds; after the body at grid point `t`
  the two input windows' staging buffers still hold their blocks (rows `1000 t … 1000 t + 999` of the rounded features;
  all eight rounded weight matrices, fetched once and never moved) and the output window's holds `projBlock` of them.
  With the body's triple this discharges the launch theorem's obligation at every point; the launch theorem then runs
  @main — the rounding lines, the 50 grid points, the 205 later lines — to its end, and the argument arrays end as launched.
-/
import proofs.«125933_j16982300688782_1_alg».proof.Proof.K.Body
import proofs.«125933_j16982300688782_1_alg».proof.Proof.K.Tail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; after the body at point `t` the inputs' buffers at their blocks and the
    output's at `projBlock` of them; the invariant is the untouched scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => projBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = projBlock (iblk m c 0 t) (iblk m c 1 t) := by dsimp only [dats]

/-- Each input's current staging buffer holds its block at every point. -/
theorem before_0 (c : Dev nD) (t : Fin cfg0.N) (d) : (dats m 0 c).before 0 t d = iblk m c 0 t :=
  before_rows_of m (dats m 0 c) (A_eq m c 0) (after_0 m c) t d
theorem before_1 (c : Dev nD) (t : Fin cfg0.N) (d) : (dats m 0 c).before 1 t d = iblk m c 1 t :=
  before_weights_of m (dats m 0 c) (A_eq m c 1) (after_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 400000 in
set_option backward.isDefEq.respectTransparency.types false in
/-- From any memory with zero counters every weakly fair execution of @main terminates without a fault; in every
    final state each array of the region holds what the library computes from the proof data, and every other
    unscoped buffer what the later lines leave there. -/
theorem run_main : θ_run defs (onTc (τ := τ) (main (F := F))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame: the program runs to its end, nothing faults, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Hand

end
-- ==== Proof.KI.Body.lean ====
/-
  The kernel body of the relation projection, run once on whole staging buffers.

  One grid point holds a block of 1000 rows of the (rounded) node features `x` and all 8 relation weight
  matrices. The body reads the row block once, and for each relation `r = 0 … 7` reads the matrix `W r`,
  multiplies the row block by it into a zero accumulator and stores the 1000 × 256 product as slab `r` of the
  8 × 1000 × 256 output block (the load of the output slab that precedes each store is never used). The eight
  slabs tile the output block, so after the body the output buffer is one function of the two input buffers:
  the canonical reading of the eight stores, `projBlock`.
-/
import proofs.«125933_j16982300688782_1_alg».proof.Proof.Gen.KernelIdeal.Launch
import proofs.«125933_j16982300688782_1_alg».proof.Proof.Gen.KernelIdeal.Skeleton
import proofs.«125933_j16982300688782_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- The whole 1000 × 512 row block. -/
abbrev rX : Rect S1000x512 := Rect.unit (s := S1000x512) ![0, 0] S1000x512.size inb_S1000x512_S1000x512_0_0
/-- Relation 0's 512 × 256 weight matrix inside the 8 × 512 × 256 buffer. -/
abbrev rW0 : Rect S8x512x256 := Rect.unit (s := S8x512x256) ![0, 0, 0] S1x512x256.size inb_S8x512x256_S1x512x256_0_0_0
/-- Relation 0's 1000 × 256 slab of the 8 × 1000 × 256 output block. -/
abbrev rO0 : Rect S8x1000x256 := Rect.unit (s := S8x1000x256) ![0, 0, 0] S1x1000x256.size inb_S8x1000x256_S1x1000x256_0_0_0
/-- Relation 1's 512 × 256 weight matrix inside the 8 × 512 × 256 buffer. -/
abbrev rW1 : Rect S8x512x256 := Rect.unit (s := S8x512x256) ![1, 0, 0] S1x512x256.size inb_S8x512x256_S1x512x256_1_0_0
/-- Relation 1's 1000 × 256 slab of the 8 × 1000 × 256 output block. -/
abbrev rO1 : Rect S8x1000x256 := Rect.unit (s := S8x1000x256) ![1, 0, 0] S1x1000x256.size inb_S8x1000x256_S1x1000x256_1_0_0
/-- Relation 2's 512 × 256 weight matrix inside the 8 × 512 × 256 buffer. -/
abbrev rW2 : Rect S8x512x256 := Rect.unit (s := S8x512x256) ![2, 0, 0] S1x512x256.size inb_S8x512x256_S1x512x256_2_0_0
/-- Relation 2's 1000 × 256 slab of the 8 × 1000 × 256 output block. -/
abbrev rO2 : Rect S8x1000x256 := Rect.unit (s := S8x1000x256) ![2, 0, 0] S1x1000x256.size inb_S8x1000x256_S1x1000x256_2_0_0
/-- Relation 3's 512 × 256 weight matrix inside the 8 × 512 × 256 buffer. -/
abbrev rW3 : Rect S8x512x256 := Rect.unit (s := S8x512x256) ![3, 0, 0] S1x512x256.size inb_S8x512x256_S1x512x256_3_0_0
/-- Relation 3's 1000 × 256 slab of the 8 × 1000 × 256 output block. -/
abbrev rO3 : Rect S8x1000x256 := Rect.unit (s := S8x1000x256) ![3, 0, 0] S1x1000x256.size inb_S8x1000x256_S1x1000x256_3_0_0
/-- Relation 4's 512 × 256 weight matrix inside the 8 × 512 × 256 buffer. -/
abbrev rW4 : Rect S8x512x256 := Rect.unit (s := S8x512x256) ![4, 0, 0] S1x512x256.size inb_S8x512x256_S1x512x256_4_0_0
/-- Relation 4's 1000 × 256 slab of the 8 × 1000 × 256 output block. -/
abbrev rO4 : Rect S8x1000x256 := Rect.unit (s := S8x1000x256) ![4, 0, 0] S1x1000x256.size inb_S8x1000x256_S1x1000x256_4_0_0
/-- Relation 5's 512 × 256 weight matrix inside the 8 × 512 × 256 buffer. -/
abbrev rW5 : Rect S8x512x256 := Rect.unit (s := S8x512x256) ![5, 0, 0] S1x512x256.size inb_S8x512x256_S1x512x256_5_0_0
/-- Relation 5's 1000 × 256 slab of the 8 × 1000 × 256 output block. -/
abbrev rO5 : Rect S8x1000x256 := Rect.unit (s := S8x1000x256) ![5, 0, 0] S1x1000x256.size inb_S8x1000x256_S1x1000x256_5_0_0
/-- Relation 6's 512 × 256 weight matrix inside the 8 × 512 × 256 buffer. -/
abbrev rW6 : Rect S8x512x256 := Rect.unit (s := S8x512x256) ![6, 0, 0] S1x512x256.size inb_S8x512x256_S1x512x256_6_0_0
/-- Relation 6's 1000 × 256 slab of the 8 × 1000 × 256 output block. -/
abbrev rO6 : Rect S8x1000x256 := Rect.unit (s := S8x1000x256) ![6, 0, 0] S1x1000x256.size inb_S8x1000x256_S1x1000x256_6_0_0
/-- Relation 7's 512 × 256 weight matrix inside the 8 × 512 × 256 buffer. -/
abbrev rW7 : Rect S8x512x256 := Rect.unit (s := S8x512x256) ![7, 0, 0] S1x512x256.size inb_S8x512x256_S1x512x256_7_0_0
/-- Relation 7's 1000 × 256 slab of the 8 × 1000 × 256 output block. -/
abbrev rO7 : Rect S8x1000x256 := Rect.unit (s := S8x1000x256) ![7, 0, 0] S1x1000x256.size inb_S8x1000x256_S1x1000x256_7_0_0

/-! ## What the body leaves in the output block -/

/-- The output block after the body, from the two input blocks: the eight stores as pieces, last store first; slab
    `r` is the product of the row block with relation `r`'s matrix into a zero accumulator. -/
def projBlock (x0 : Vec F S1000x512 .bf16) (x1 : Vec F S8x512x256 .bf16) : Vec F S8x1000x256 .f32 :=
  View.canon [⟨rO7, k0_pay4 (k0_pay5 (View.ld x0 rX)) (View.ld x1 rW7)⟩,
    ⟨rO6, k0_pay3 (k0_pay5 (View.ld x0 rX)) (View.ld x1 rW6)⟩,
    ⟨rO5, k0_pay2 (k0_pay5 (View.ld x0 rX)) (View.ld x1 rW5)⟩,
    ⟨rO4, k0_pay1 (k0_pay5 (View.ld x0 rX)) (View.ld x1 rW4)⟩,
    ⟨rO3, k0_pay9 (View.ld x0 rX) (View.ld x1 rW3)⟩,
    ⟨rO2, k0_pay8 (View.ld x0 rX) (View.ld x1 rW2)⟩,
    ⟨rO1, k0_pay7 (View.ld x0 rX) (View.ld x1 rW1)⟩,
    ⟨rO0, k0_pay6 (View.ld x0 rX) (View.ld x1 rW0)⟩]

/-- The eight slabs tile the output block, so every index of the block lies in one of them. -/
theorem slabs_cover (p7 p6 p5 p4 p3 p2 p1 p0 : Vec F S1x1000x256 .f32) (y : S8x1000x256.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] :
      List (View.Piece (Elt F) S8x1000x256 .f32)), y ∈ pc.1.set :=
  View.cover_of_tiled [⟨rO7, p7⟩, ⟨rO6, p6⟩, ⟨rO5, p5⟩, ⟨rO4, p4⟩, ⟨rO3, p3⟩, ⟨rO2, p2⟩, ⟨rO1, p1⟩, ⟨rO0, p0⟩]
    S1x1000x256.size (by rfl) y

/-! ## The body's triple -/

set_option maxHeartbeats 4000000 in
/-- The body on whole staging buffers — the two inputs' at contents `x0`, `x1`, the output's at anything — runs to its
    end without a fault, leaves the inputs' buffers as they were and the output's at `projBlock x0 x1`. -/
theorem sound_kernel (c : Dev nD) (E : Set ℕ) (i : grid0.Coords)
    (arg1 : Memref sig .tc .vmem S1000x512 .bf16) (harg1 : arg1.IsWhole)
    (arg2 : Memref sig .tc .vmem S8x512x256 .bf16) (harg2 : arg2.IsWhole)
    (arg3 : Memref sig .tc .vmem S8x1000x256 .f32) (harg3 : arg3.IsWhole)
    (x0 : Vec F S1000x512 .bf16) (x1 : Vec F S8x512x256 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (projBlock x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  simp only [k0_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (slabs_cover _ _ _ _ _ _ _ _)

end Cert.KernelIdeal.Hand

end
-- ==== Proof.KI.Tail.lean ====
/-
  The host lines around the relation projection's one region.

  @main is two host lines (the two inputs rounded for the matrix unit), the region, and then 205 host lines: per
  relation a slice of the projected features, the gather of source rows, the scaling by edge weights, the
  scatter-add at destination rows and the running sum, and last the rectifier. This module records what the launch
  theorem needs of those lines and nothing of what they compute: they allocate nothing, they touch only buffers the
  region leaves alone or the region's arrays, and none of them writes an argument array or an array the region stages.
  Every line writes exactly one buffer, its own result, which is none of those eight.
-/
import proofs.«125933_j16982300688782_1_alg».proof.Proof.Gen.KernelIdeal.Launch
import proofs.«125933_j16982300688782_1_alg».proof.Proof.Gen.KernelIdeal.Skeleton
import proofs.«125933_j16982300688782_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents after the two rounding lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The lines allocate nothing -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-! ## No line writes an argument array or an array the region stages -/

/-- A reference outside a list is, as a device buffer, none of the list's. -/
theorem kept_ne {L : List (Ref sig .tc)} {y : Ref sig .tc} (h : y ∉ L) :
    ∀ r ∈ L, ¬ Proc.devRef (τ := τ) .tc r = Proc.devRef .tc y :=
  fun r hr e => h (Proc.devRef_injective _ e ▸ hr)

/-- The five argument arrays and the three arrays the region's windows stage. -/
abbrev keptRefs : List (Ref sig .tc) := [main_arg0, main_arg1, main_arg2, main_arg3, main_arg4, main_v0, main_v1, main_v2]

set_option maxHeartbeats 40000000 in
/-- Each of the 202 lines after the region writes its own result buffer, which is none of the eight. -/
theorem hostOps1_keeps : (hostOps1 : List (HloOp τ sig (Elt F))).Forall fun op =>
    ∀ r ∈ keptRefs, Proc.devRef (τ := τ) .tc r ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact kept_ne (by decide)

/-- So do the rectifier's three lines. -/
theorem hostOps1_1_keeps : (hostOps1_1 : List (HloOp τ sig (Elt F))).Forall fun op =>
    ∀ r ∈ keptRefs, Proc.devRef (τ := τ) .tc r ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact kept_ne (by decide)

/-- The two rounding lines write neither an argument array nor the region's output array. -/
theorem hostOps0_keeps : (hostOps0 : List (HloOp τ sig (Elt F))).Forall fun op =>
    ∀ r ∈ ([main_arg0, main_arg1, main_arg2, main_arg3, main_arg4, main_v2] : List (Ref sig .tc)), Proc.devRef (τ := τ) .tc r ∉ op.writes := by
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact kept_ne (by decide)

/-- A kept buffer after all the later lines holds what it held before them. -/
theorem tail_keeps (W : Valuation τ sig (Elt F)) (r : Ref sig .tc) (hr : r ∈ keptRefs) :
    StableHlo.after (List.flatten [hostOps1, hostOps1_1]) W (Proc.devRef .tc r) = W (Proc.devRef .tc r) := by
  refine StableHlo.after_of_forall_not_mem _ _ fun op hop => ?_
  simp only [List.flatten_cons, List.flatten_nil, List.append_nil, List.mem_append] at hop
  rcases hop with hop | hop
  · exact (List.forall_iff_forall_mem.mp hostOps1_keeps) op hop r hr
  · exact (List.forall_iff_forall_mem.mp hostOps1_1_keeps) op hop r hr

/-! ## @main around the region -/

set_option maxRecDepth 400000 in
/-- @main is the rounding lines, the region, and the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) (fun c => by
      rw [main_chain c]
      simp only [List.map_cons, List.map_nil, List.cons_append, List.nil_append])

/-- The later lines touch the region's arrays and the buffers that bypass the region only. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)

/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- And they write no array of the region. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop w
  have hw : Pipeline.arrRef spec0 w ∈ (keptRefs : List (Ref sig .tc)) := by
    fin_cases w
    · show main_v0 ∈ _; simp only [keptRefs, List.mem_cons, true_or, or_true]
    · show main_v1 ∈ _; simp only [keptRefs, List.mem_cons, true_or, or_true]
    · show main_v2 ∈ _; simp only [keptRefs, List.mem_cons, true_or, or_true]
  simp only [List.mem_cons, List.mem_nil_iff, or_false] at hops
  rcases hops with rfl | rfl
  · exact (List.forall_iff_forall_mem.mp hostOps1_keeps) op hop _ hw
  · exact (List.forall_iff_forall_mem.mp hostOps1_1_keeps) op hop _ hw

/-! ## The argument arrays, before and after -/

/-- No rounding line writes an argument array or the output array: the region finds each as launched. -/
theorem V_kept (c : Dev nD) (r : Ref sig .tc)
    (hr : r ∈ ([main_arg0, main_arg1, main_arg2, main_arg3, main_arg4, main_v2] : List (Ref sig .tc))) :
    V m c r = m ((c : Thread nD τ).loc r) :=
  StableHlo.after_of_forall_not_mem (b := Proc.devRef .tc r) _ _ (by
    simp only [List.flatten_cons, List.flatten_nil, List.append_nil]
    exact fun op hop => (List.forall_iff_forall_mem.mp hostOps0_keeps) op hop r hr)

/-- An argument array after the whole program is as launched: no later line writes it, the region stages none of
    them, and no rounding line writes it. -/
theorem W_arg (dats : (p : Fin _) → (c : Dev nD) → Dat τ (Elt F) Unit ℕ (UR sig nD τ) ℕ (cfgs p) c) (c : Dev nD) (r : Ref sig .tc)
    (hr : r ∈ ([main_arg0, main_arg1, main_arg2, main_arg3, main_arg4] : List (Ref sig .tc))) :
    Pipeline.afterTail₀ cfgs dats 0 (V0 m) [hostOps1, hostOps1_1] c r = m ((c : Thread nD τ).loc r) := by
  have hk : r ∈ (keptRefs : List (Ref sig .tc)) := by
    simp only [List.mem_cons, List.not_mem_nil, or_false] at hr
    rcases hr with rfl | rfl | rfl | rfl | rfl <;> simp only [keptRefs, List.mem_cons, true_or, or_true]
  have hne : ∀ w, Pipeline.arrRef spec0 w ≠ r := by
    simp only [List.mem_cons, List.not_mem_nil, or_false] at hr
    rcases hr with rfl | rfl | rfl | rfl | rfl <;> exact (by decide)
  unfold Pipeline.afterTail₀
  rw [tail_keeps _ r hk, Pipeline.withArrays_of_ne _ c (V0 m c) _ r hne]
  exact V_kept m c r (by
    simp only [List.mem_cons, List.not_mem_nil, or_false] at hr ⊢
    rcases hr with rfl | rfl | rfl | rfl | rfl <;> simp only [true_or, or_true])

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window's current staging buffer holds its block at every point (it is fetched at every point), for any
    proof data whose array is the region-entry one and whose body leaves the block in place. -/
theorem before_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's current staging buffer holds its one block at every point: fetched at the first point only,
    and at the others the block index has not moved. -/
theorem before_weights_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the launch theorem's post gives the frame
    claim's post: each argument array ends as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_arg m dats c main_arg0 (by simp only [List.mem_cons, true_or, or_true])),
     ((h c).2 main_arg1 (Pipeline.mem_restRefs_of main_arg1 (by decide) (by decide))).trans (W_arg m dats c main_arg1 (by simp only [List.mem_cons, true_or, or_true])),
     ((h c).2 main_arg2 (Pipeline.mem_restRefs_of main_arg2 (by decide) (by decide))).trans (W_arg m dats c main_arg2 (by simp only [List.mem_cons, true_or, or_true])),
     ((h c).2 main_arg3 (Pipeline.mem_restRefs_of main_arg3 (by decide) (by decide))).trans (W_arg m dats c main_arg3 (by simp only [List.mem_cons, true_or, or_true])),
     ((h c).2 main_arg4 (Pipeline.mem_restRefs_of main_arg4 (by decide) (by decide))).trans (W_arg m dats c main_arg4 (by simp only [List.mem_cons, true_or, or_true]))⟩) h

end Cert.KernelIdeal.Hand

end
-- ==== Proof.KI.Frame.lean ====
/-
  The run of the relation projection's program and its frame.

  The proof data of the one region: each window's array is what the region finds; after the body at grid point `t`
  the two input windows' staging buffers still hold their blocks (rows `1000 t … 1000 t + 999` of the rounded features;
  all eight rounded weight matrices, fetched once and never moved) and the output window's holds `projBlock` of them.
  With the body's triple this discharges the launch theorem's obligation at every point; the launch theorem then runs
  @main — the rounding lines, the 50 grid points, the 205 later lines — to its end, and the argument arrays end as launched.
-/
import proofs.«125933_j16982300688782_1_alg».proof.Proof.KI.Body
import proofs.«125933_j16982300688782_1_alg».proof.Proof.KI.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; after the body at point `t` the inputs' buffers at their blocks and the
    output's at `projBlock` of them; the invariant is the untouched scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => projBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = projBlock (iblk m c 0 t) (iblk m c 1 t) := by dsimp only [dats]

/-- Each input's current staging buffer holds its block at every point. -/
theorem before_0 (c : Dev nD) (t : Fin cfg0.N) (d) : (dats m 0 c).before 0 t d = iblk m c 0 t :=
  before_rows_of m (dats m 0 c) (A_eq m c 0) (after_0 m c) t d
theorem before_1 (c : Dev nD) (t : Fin cfg0.N) (d) : (dats m 0 c).before 1 t d = iblk m c 1 t :=
  before_weights_of m (dats m 0 c) (A_eq m c 1) (after_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 400000 in
set_option backward.isDefEq.respectTransparency.types false in
/-- From any memory with zero counters every weakly fair execution of @main terminates without a fault; in every
    final state each array of the region holds what the library computes from the proof data, and every other
    unscoped buffer what the later lines leave there. -/
theorem run_main : θ_run defs (onTc (τ := τ) (main (F := F))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The frame: the program runs to its end, nothing faults, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Hand

end
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.LibProjection.lean ====
/-
  One matrix of a stack multiplied into a row block, read at an entry, over the extended reals, at any extents.

  `slab_apply`: slab `r` of a stack `[R, b, c]`, cut out as `[1, b, c]` and viewed as the matrix `[b, c]`, reads at
  `(p, q)` the stack at `(r, p, q)`.
  `dotGeneral_plain_apply`: the host's plain product of `[M, K]` by `[K, N]` at `(p, e)` is the sum over the contracted
  coordinate `f` of the left operand at `(p, f)` times the right at `(f, e)` (it has no accumulator).
  `slabProduct_apply`: a row block `[M, K]` (viewed as itself) times a one-matrix block `[1, K, N]` viewed as `[K, N]`,
  into the zero accumulator, the product viewed as the one-slab block `[1, M, N]`: at `(u, p, e)` the sum over `f` of the
  row block at `(p, f)` times the matrix block at `(0, f, e)`.
-/
import Idealize.ShloMosaic.Lib.ValueIdx
import Idealize.ShloMosaic.Lib.ValueLayout
import Idealize.ShloMosaic.Lib.Pipeline.Value
import Idealize.ShloMosaic.PureOps.Ideal.Laws
import proofs.«125933_j16982300688782_1_alg».proof.Proof.LibMatmul

open scoped BigOperators

noncomputable section

namespace Cert.Lib.Projection

open Idealize.ShloMosaic Idealize.ShloMosaic.ValueIdx

/-- Slab `r` of a stack, cut out and viewed as a matrix, at `(p, q)`. -/
theorem slab_apply {α : Type} {R b c : ℕ} (off : Fin 3 → ℕ) (x : (⟨3, ![R, b, c]⟩ : Shape).Idx → α)
    (h : (⟨3, ![R, b, c]⟩ : Shape).Slices off ⟨3, ![1, b, c]⟩)
    (h' : (⟨3, ![1, b, c]⟩ : Shape).ShapeCasts ⟨2, ![b, c]⟩)
    (r : Fin R) (h0 : off 0 = r.val) (h1 : off 1 = 0) (h2 : off 2 = 0) (p : Fin b) (q : Fin c) :
    shapeCast ⟨2, ![b, c]⟩ (extractStridedSlice ⟨3, ![1, b, c]⟩ off x h) h' (ix2 p q) = x (ix3 r p q) :=
  (shapeCast_1ab_ab_apply _ h' p q).trans (extractStridedSlice_apply off x h _ _ (fun a => by
    match a with
    | ⟨0, _⟩ => show r.val = off 0 + 0; omega
    | ⟨1, _⟩ => show p.val = off 1 + p.val; omega
    | ⟨2, _⟩ => show q.val = off 2 + q.val; omega))

/-- The host's plain product at `(p, e)`. -/
theorem dotGeneral_plain_apply {M K N : ℕ} {φ₁ φ₂ : FTy} (prec : Option ContractPrecision)
    (L : FVec Ideal ⟨2, ![M, K]⟩ φ₁) (R : FVec Ideal ⟨2, ![K, N]⟩ φ₂) (p : Fin M) (e : Fin N) :
    Host.dotGeneral (F := Ideal) (DotDims.plain M K N) prec L R (ix2 p e) = ∑ f : Fin K, L (ix2 p f) * R (ix2 f e) :=
  (Ideal.dotGeneral_apply (DotDims.plain M K N) prec .single L R (ix2 p e)).trans (Cert.Lib.Matmul.plain_sum L R p e)

/-- A row block times one matrix block into zero, viewed as a one-slab block, at `(u, p, e)`. -/
theorem slabProduct_apply {M K N : ℕ} {φ₁ φ₂ : FTy} (prec : Option ContractPrecision)
    (v0 : FVec Ideal ⟨2, ![M, K]⟩ φ₁) (h0 : (⟨2, ![M, K]⟩ : Shape).ShapeCasts ⟨2, ![M, K]⟩)
    (v2 : FVec Ideal ⟨3, ![1, K, N]⟩ φ₂) (h2 : (⟨3, ![1, K, N]⟩ : Shape).ShapeCasts ⟨2, ![K, N]⟩)
    (h3 : (⟨2, ![M, N]⟩ : Shape).ShapeCasts ⟨3, ![1, M, N]⟩) (u : Fin 1) (p : Fin M) (e : Fin N) :
    shapeCast ⟨3, ![1, M, N]⟩ (matmul (F := Ideal) (DotDims.plain M K N) prec (shapeCast ⟨2, ![M, K]⟩ v0 h0)
        (shapeCast ⟨2, ![K, N]⟩ v2 h2) (constant ⟨2, ![M, N]⟩ .f32 0x00000000#32)) h3 (ix3 u p e)
      = ∑ f : Fin K, v0 (ix2 p f) * v2 (ix3 (0 : Fin 1) f e) := by
  refine (shapeCast_ab_1ab_apply _ h3 u p e).trans ?_
  refine (Cert.Lib.Matmul.matmul_plain_zero_apply prec _ _ p e).trans ?_
  refine Finset.sum_congr rfl fun f _ => ?_
  rw [shapeCast_self, shapeCast_1ab_ab_apply]

end Cert.Lib.Projection

end
-- ==== Proof.KI.BlockValue.lean ====
/-
  The output block of one grid point, read at an entry.

  After the body the output block holds, at slab `r`, row `p`, column `e`, the sum over the input feature `f` of the
  row block at `(p, f)` times the weight block at `(r, f, e)`: each of the eight stored slabs is the product of the row
  block with one matrix into a zero accumulator, and the slabs tile the block.
-/
import proofs.«125933_j16982300688782_1_alg».proof.Proof.KI.Body
import proofs.«125933_j16982300688782_1_alg».proof.Proof.LibProjection

set_option maxRecDepth 16384

open scoped BigOperators

noncomputable section

namespace Cert.KernelIdeal.Hand

open Cert.KernelIdeal Cert.KernelIdeal.Gen
open Idealize.ShloMosaic Idealize.ShloMosaic.ValueIdx

/-- The block function: slab `r`, row `p`, column `e` ↦ Σ_f row block (p, f) · weight block (r, f, e). -/
def blockAt (x0 : FVec Ideal S1000x512 .bf16) (x1 : FVec Ideal S8x512x256 .bf16) (r : Fin 8) (p : Fin 1000) (e : Fin 256) : EReal :=
  ∑ f : Fin 512, x0 (ix2 p f) * x1 (ix3 r f e)

/-- The same as a function of the block's index. -/
def blockFn (x0 : FVec Ideal S1000x512 .bf16) (x1 : FVec Ideal S8x512x256 .bf16) : S8x1000x256.Idx → EReal :=
  fun i => blockAt x0 x1 (i 0) (i 1) (i 2)

/-- Slab 0: the stored product at a local index is the block function at the array index under it. -/
theorem slab0 (x0 : FVec Ideal S1000x512 .bf16) (x1 : FVec Ideal S8x512x256 .bf16) (x : S1x1000x256.Idx) :
    k0_pay6 (F := Ideal) (View.ld x0 rX) (View.ld x1 rW0) x = blockFn x0 x1 (rO0.emb x) := by
  obtain ⟨u, p, e, rfl⟩ : ∃ (u : Fin 1) (p : Fin 1000) (e : Fin 256), x = ix3 u p e := ⟨x 0, x 1, x 2, eq_ix3 x⟩
  unfold k0_pay6 k0_pay5
  refine (Cert.Lib.Projection.slabProduct_apply (M := 1000) (K := 512) (N := 256) (φ₁ := .bf16) (φ₂ := .bf16) none _ _ _ _ _ u p e).trans ?_
  unfold blockFn blockAt
  refine Finset.sum_congr rfl fun f _ => ?_
  have hu : u.val = 0 := by omega
  have e0 : rX.idx (ix2 p f) = ix2 (rO0.emb (ix3 u p e) 1) f := funext fun a => Fin.ext (by
    match a with
    | ⟨0, _⟩ => show 0 + 1 * p.val = 0 + 1 * p.val; rfl
    | ⟨1, _⟩ => show 0 + 1 * f.val = f.val; omega)
  have e1 : rW0.idx (ix3 (0 : Fin 1) f e) = ix3 (rO0.emb (ix3 u p e) 0) f (rO0.emb (ix3 u p e) 2) := funext fun a => Fin.ext (by
    match a with
    | ⟨0, _⟩ => show 0 + 1 * 0 = 0 + 1 * u.val; omega
    | ⟨1, _⟩ => show 0 + 1 * f.val = f.val; omega
    | ⟨2, _⟩ => show 0 + 1 * e.val = 0 + 1 * e.val; rfl)
  exact congrArg₂ (· * ·) (congrArg x0 e0) (congrArg x1 e1)

/-- Slab 1: the stored product at a local index is the block function at the array index under it. -/
theorem slab1 (x0 : FVec Ideal S1000x512 .bf16) (x1 : FVec Ideal S8x512x256 .bf16) (x : S1x1000x256.Idx) :
    k0_pay7 (F := Ideal) (View.ld x0 rX) (View.ld x1 rW1) x = blockFn x0 x1 (rO1.emb x) := by
  obtain ⟨u, p, e, rfl⟩ : ∃ (u : Fin 1) (p : Fin 1000) (e : Fin 256), x = ix3 u p e := ⟨x 0, x 1, x 2, eq_ix3 x⟩
  unfold k0_pay7 k0_pay5
  refine (Cert.Lib.Projection.slabProduct_apply (M := 1000) (K := 512) (N := 256) (φ₁ := .bf16) (φ₂ := .bf16) none _ _ _ _ _ u p e).trans ?_
  unfold blockFn blockAt
  refine Finset.sum_congr rfl fun f _ => ?_
  have hu : u.val = 0 := by omega
  have e0 : rX.idx (ix2 p f) = ix2 (rO1.emb (ix3 u p e) 1) f := funext fun a => Fin.ext (by
    match a with
    | ⟨0, _⟩ => show 0 + 1 * p.val = 0 + 1 * p.val; rfl
    | ⟨1, _⟩ => show 0 + 1 * f.val = f.val; omega)
  have e1 : rW1.idx (ix3 (0 : Fin 1) f e) = ix3 (rO1.emb (ix3 u p e) 0) f (rO1.emb (ix3 u p e) 2) := funext fun a => Fin.ext (by
    match a with
    | ⟨0, _⟩ => show 1 + 1 * 0 = 1 + 1 * u.val; omega
    | ⟨1, _⟩ => show 0 + 1 * f.val = f.val; omega
    | ⟨2, _⟩ => show 0 + 1 * e.val = 0 + 1 * e.val; rfl)
  exact congrArg₂ (· * ·) (congrArg x0 e0) (congrArg x1 e1)

/-- Slab 2: the stored product at a local index is the block function at the array index under it. -/
theorem slab2 (x0 : FVec Ideal S1000x512 .bf16) (x1 : FVec Ideal S8x512x256 .bf16) (x : S1x1000x256.Idx) :
    k0_pay8 (F := Ideal) (View.ld x0 rX) (View.ld x1 rW2) x = blockFn x0 x1 (rO2.emb x) := by
  obtain ⟨u, p, e, rfl⟩ : ∃ (u : Fin 1) (p : Fin 1000) (e : Fin 256), x = ix3 u p e := ⟨x 0, x 1, x 2, eq_ix3 x⟩
  unfold k0_pay8 k0_pay5
  refine (Cert.Lib.Projection.slabProduct_apply (M := 1000) (K := 512) (N := 256) (φ₁ := .bf16) (φ₂ := .bf16) none _ _ _ _ _ u p e).trans ?_
  unfold blockFn blockAt
  refine Finset.sum_congr rfl fun f _ => ?_
  have hu : u.val = 0 := by omega
  have e0 : rX.idx (ix2 p f) = ix2 (rO2.emb (ix3 u p e) 1) f := funext fun a => Fin.ext (by
    match a with
    | ⟨0, _⟩ => show 0 + 1 * p.val = 0 + 1 * p.val; rfl
    | ⟨1, _⟩ => show 0 + 1 * f.val = f.val; omega)
  have e1 : rW2.idx (ix3 (0 : Fin 1) f e) = ix3 (rO2.emb (ix3 u p e) 0) f (rO2.emb (ix3 u p e) 2) := funext fun a => Fin.ext (by
    match a with
    | ⟨0, _⟩ => show 2 + 1 * 0 = 2 + 1 * u.val; omega
    | ⟨1, _⟩ => show 0 + 1 * f.val = f.val; omega
    | ⟨2, _⟩ => show 0 + 1 * e.val = 0 + 1 * e.val; rfl)
  exact congrArg₂ (· * ·) (congrArg x0 e0) (congrArg x1 e1)

/-- Slab 3: the stored product at a local index is the block function at the array index under it. -/
theorem slab3 (x0 : FVec Ideal S1000x512 .bf16) (x1 : FVec Ideal S8x512x256 .bf16) (x : S1x1000x256.Idx) :
    k0_pay9 (F := Ideal) (View.ld x0 rX) (View.ld x1 rW3) x = blockFn x0 x1 (rO3.emb x) := by
  obtain ⟨u, p, e, rfl⟩ : ∃ (u : Fin 1) (p : Fin 1000) (e : Fin 256), x = ix3 u p e := ⟨x 0, x 1, x 2, eq_ix3 x⟩
  unfold k0_pay9 k0_pay5
  refine (Cert.Lib.Projection.slabProduct_apply (M := 1000) (K := 512) (N := 256) (φ₁ := .bf16) (φ₂ := .bf16) none _ _ _ _ _ u p e).trans ?_
  unfold blockFn blockAt
  refine Finset.sum_congr rfl fun f _ => ?_
  have hu : u.val = 0 := by omega
  have e0 : rX.idx (ix2 p f) = ix2 (rO3.emb (ix3 u p e) 1) f := funext fun a => Fin.ext (by
    match a with
    | ⟨0, _⟩ => show 0 + 1 * p.val = 0 + 1 * p.val; rfl
    | ⟨1, _⟩ => show 0 + 1 * f.val = f.val; omega)
  have e1 : rW3.idx (ix3 (0 : Fin 1) f e) = ix3 (rO3.emb (ix3 u p e) 0) f (rO3.emb (ix3 u p e) 2) := funext fun a => Fin.ext (by
    match a with
    | ⟨0, _⟩ => show 3 + 1 * 0 = 3 + 1 * u.val; omega
    | ⟨1, _⟩ => show 0 + 1 * f.val = f.val; omega
    | ⟨2, _⟩ => show 0 + 1 * e.val = 0 + 1 * e.val; rfl)
  exact congrArg₂ (· * ·) (congrArg x0 e0) (congrArg x1 e1)

/-- Slab 4: the stored product at a local index is the block function at the array index under it. -/
theorem slab4 (x0 : FVec Ideal S1000x512 .bf16) (x1 : FVec Ideal S8x512x256 .bf16) (x : S1x1000x256.Idx) :
    k0_pay1 (F := Ideal) (k0_pay5 (View.ld x0 rX)) (View.ld x1 rW4) x = blockFn x0 x1 (rO4.emb x) := by
  obtain ⟨u, p, e, rfl⟩ : ∃ (u : Fin 1) (p : Fin 1000) (e : Fin 256), x = ix3 u p e := ⟨x 0, x 1, x 2, eq_ix3 x⟩
  unfold k0_pay1 k0_pay5
  refine (Cert.Lib.Projection.slabProduct_apply (M := 1000) (K := 512) (N := 256) (φ₁ := .bf16) (φ₂ := .bf16) none _ _ _ _ _ u p e).trans ?_
  unfold blockFn blockAt
  refine Finset.sum_congr rfl fun f _ => ?_
  have hu : u.val = 0 := by omega
  have e0 : rX.idx (ix2 p f) = ix2 (rO4.emb (ix3 u p e) 1) f := funext fun a => Fin.ext (by
    match a with
    | ⟨0, _⟩ => show 0 + 1 * p.val = 0 + 1 * p.val; rfl
    | ⟨1, _⟩ => show 0 + 1 * f.val = f.val; omega)
  have e1 : rW4.idx (ix3 (0 : Fin 1) f e) = ix3 (rO4.emb (ix3 u p e) 0) f (rO4.emb (ix3 u p e) 2) := funext fun a => Fin.ext (by
    match a with
    | ⟨0, _⟩ => show 4 + 1 * 0 = 4 + 1 * u.val; omega
    | ⟨1, _⟩ => show 0 + 1 * f.val = f.val; omega
    | ⟨2, _⟩ => show 0 + 1 * e.val = 0 + 1 * e.val; rfl)
  exact congrArg₂ (· * ·) (congrArg x0 e0) (congrArg x1 e1)

/-- Slab 5: the stored product at a local index is the block function at the array index under it. -/
theorem slab5 (x0 : FVec Ideal S1000x512 .bf16) (x1 : FVec Ideal S8x512x256 .bf16) (x : S1x1000x256.Idx) :
    k0_pay2 (F := Ideal) (k0_pay5 (View.ld x0 rX)) (View.ld x1 rW5) x = blockFn x0 x1 (rO5.emb x) := by
  obtain ⟨u, p, e, rfl⟩ : ∃ (u : Fin 1) (p : Fin 1000) (e : Fin 256), x = ix3 u p e := ⟨x 0, x 1, x 2, eq_ix3 x⟩
  unfold k0_pay2 k0_pay5
  refine (Cert.Lib.Projection.slabProduct_apply (M := 1000) (K := 512) (N := 256) (φ₁ := .bf16) (φ₂ := .bf16) none _ _ _ _ _ u p e).trans ?_
  unfold blockFn blockAt
  refine Finset.sum_congr rfl fun f _ => ?_
  have hu : u.val = 0 := by omega
  have e0 : rX.idx (ix2 p f) = ix2 (rO5.emb (ix3 u p e) 1) f := funext fun a => Fin.ext (by
    match a with
    | ⟨0, _⟩ => show 0 + 1 * p.val = 0 + 1 * p.val; rfl
    | ⟨1, _⟩ => show 0 + 1 * f.val = f.val; omega)
  have e1 : rW5.idx (ix3 (0 : Fin 1) f e) = ix3 (rO5.emb (ix3 u p e) 0) f (rO5.emb (ix3 u p e) 2) := funext fun a => Fin.ext (by
    match a with
    | ⟨0, _⟩ => show 5 + 1 * 0 = 5 + 1 * u.val; omega
    | ⟨1, _⟩ => show 0 + 1 * f.val = f.val; omega
    | ⟨2, _⟩ => show 0 + 1 * e.val = 0 + 1 * e.val; rfl)
  exact congrArg₂ (· * ·) (congrArg x0 e0) (congrArg x1 e1)

/-- Slab 6: the stored product at a local index is the block function at the array index under it. -/
theorem slab6 (x0 : FVec Ideal S1000x512 .bf16) (x1 : FVec Ideal S8x512x256 .bf16) (x : S1x1000x256.Idx) :
    k0_pay3 (F := Ideal) (k0_pay5 (View.ld x0 rX)) (View.ld x1 rW6) x = blockFn x0 x1 (rO6.emb x) := by
  obtain ⟨u, p, e, rfl⟩ : ∃ (u : Fin 1) (p : Fin 1000) (e : Fin 256), x = ix3 u p e := ⟨x 0, x 1, x 2, eq_ix3 x⟩
  unfold k0_pay3 k0_pay5
  refine (Cert.Lib.Projection.slabProduct_apply (M := 1000) (K := 512) (N := 256) (φ₁ := .bf16) (φ₂ := .bf16) none _ _ _ _ _ u p e).trans ?_
  unfold blockFn blockAt
  refine Finset.sum_congr rfl fun f _ => ?_
  have hu : u.val = 0 := by omega
  have e0 : rX.idx (ix2 p f) = ix2 (rO6.emb (ix3 u p e) 1) f := funext fun a => Fin.ext (by
    match a with
    | ⟨0, _⟩ => show 0 + 1 * p.val = 0 + 1 * p.val; rfl
    | ⟨1, _⟩ => show 0 + 1 * f.val = f.val; omega)
  have e1 : rW6.idx (ix3 (0 : Fin 1) f e) = ix3 (rO6.emb (ix3 u p e) 0) f (rO6.emb (ix3 u p e) 2) := funext fun a => Fin.ext (by
    match a with
    | ⟨0, _⟩ => show 6 + 1 * 0 = 6 + 1 * u.val; omega
    | ⟨1, _⟩ => show 0 + 1 * f.val = f.val; omega
    | ⟨2, _⟩ => show 0 + 1 * e.val = 0 + 1 * e.val; rfl)
  exact congrArg₂ (· * ·) (congrArg x0 e0) (congrArg x1 e1)

/-- Slab 7: the stored product at a local index is the block function at the array index under it. -/
theorem slab7 (x0 : FVec Ideal S1000x512 .bf16) (x1 : FVec Ideal S8x512x256 .bf16) (x : S1x1000x256.Idx) :
    k0_pay4 (F := Ideal) (k0_pay5 (View.ld x0 rX)) (View.ld x1 rW7) x = blockFn x0 x1 (rO7.emb x) := by
  obtain ⟨u, p, e, rfl⟩ : ∃ (u : Fin 1) (p : Fin 1000) (e : Fin 256), x = ix3 u p e := ⟨x 0, x 1, x 2, eq_ix3 x⟩
  unfold k0_pay4 k0_pay5
  refine (Cert.Lib.Projection.slabProduct_apply (M := 1000) (K := 512) (N := 256) (φ₁ := .bf16) (φ₂ := .bf16) none _ _ _ _ _ u p e).trans ?_
  unfold blockFn blockAt
  refine Finset.sum_congr rfl fun f _ => ?_
  have hu : u.val = 0 := by omega
  have e0 : rX.idx (ix2 p f) = ix2 (rO7.emb (ix3 u p e) 1) f := funext fun a => Fin.ext (by
    match a with
    | ⟨0, _⟩ => show 0 + 1 * p.val = 0 + 1 * p.val; rfl
    | ⟨1, _⟩ => show 0 + 1 * f.val = f.val; omega)
  have e1 : rW7.idx (ix3 (0 : Fin 1) f e) = ix3 (rO7.emb (ix3 u p e) 0) f (rO7.emb (ix3 u p e) 2) := funext fun a => Fin.ext (by
    match a with
    | ⟨0, _⟩ => show 7 + 1 * 0 = 7 + 1 * u.val; omega
    | ⟨1, _⟩ => show 0 + 1 * f.val = f.val; omega
    | ⟨2, _⟩ => show 0 + 1 * e.val = 0 + 1 * e.val; rfl)
  exact congrArg₂ (· * ·) (congrArg x0 e0) (congrArg x1 e1)

/-- The output block at slab `r`, row `p`, column `e`: each of the eight pieces is the block function under its
    rectangle, and the pieces cover the block. -/
theorem projBlock_apply (x0 : FVec Ideal S1000x512 .bf16) (x1 : FVec Ideal S8x512x256 .bf16) (r : Fin 8) (p : Fin 1000) (e : Fin 256) :
    projBlock (F := Ideal) x0 x1 (ix3 r p e) = ∑ f : Fin 512, x0 (ix2 p f) * x1 (ix3 r f e) := by
  unfold projBlock
  refine (View.canon_apply_of_pieces (blockFn x0 x1) _ ?_ (ix3 r p e) (slabs_cover _ _ _ _ _ _ _ _ _)).trans rfl
  intro pc hpc x
  simp only [List.mem_cons, List.mem_nil_iff, or_false] at hpc
  rcases hpc with rfl | rfl | rfl | rfl | rfl | rfl | rfl | rfl
  · exact slab7 x0 x1 x
  · exact slab6 x0 x1 x
  · exact slab5 x0 x1 x
  · exact slab4 x0 x1 x
  · exact slab3 x0 x1 x
  · exact slab2 x0 x1 x
  · exact slab1 x0 x1 x
  · exact slab0 x0 x1 x

end Cert.KernelIdeal.Hand

end
-- ==== Proof.Spec.lean ====
/-
  The relation projection as a function of the two arrays.

  For node features `X` (50000 × 512) and the stack `W` of 8 relation matrices (512 × 256 each), relation `r`'s projected
  features are the matrix product `X · W r`: at node `n` and output feature `e` the sum over the input feature `f` of
  `X (n, f) · W (r, f, e)`. `projAll` is all 8 products stacked (8 × 50000 × 256), `projRel r` the one of relation `r`.
-/
import proofs.«125933_j16982300688782_1_alg».proof.KernelIdeal
import Idealize.ShloMosaic.Lib.ValueIdx
import Idealize.ShloMosaic.PureOps.Ideal

open scoped BigOperators

noncomputable section

namespace Cert.Spec

open Cert.KernelIdeal Idealize.ShloMosaic Idealize.ShloMosaic.ValueIdx

/-- Relation `r`'s projected feature `e` of node `n`. -/
def projAt (X : FVec Ideal S50000x512 .f32) (W : FVec Ideal S8x512x256 .f32) (r : Fin 8) (n : Fin 50000) (e : Fin 256) : EReal :=
  ∑ f : Fin 512, X (ix2 n f) * W (ix3 r f e)

/-- All 8 projections stacked. -/
def projAll (X : FVec Ideal S50000x512 .f32) (W : FVec Ideal S8x512x256 .f32) : FVec Ideal S8x50000x256 .f32 :=
  fun i => projAt X W (i 0) (i 1) (i 2)

/-- Relation `r`'s projection. -/
def projRel (X : FVec Ideal S50000x512 .f32) (W : FVec Ideal S8x512x256 .f32) (r : Fin 8) : FVec Ideal S50000x256 .f32 :=
  fun i => projAt X W r (i 0) (i 1)

theorem projAll_ix3 (X : FVec Ideal S50000x512 .f32) (W : FVec Ideal S8x512x256 .f32) (r : Fin 8) (n : Fin 50000) (e : Fin 256) :
    projAll X W (ix3 r n e) = projAt X W r n e := rfl

theorem projRel_ix2 (X : FVec Ideal S50000x512 .f32) (W : FVec Ideal S8x512x256 .f32) (r : Fin 8) (n : Fin 50000) (e : Fin 256) :
    projRel X W r (ix2 n e) = projAt X W r n e := rfl

end Cert.Spec

end
-- ==== Proof.KI.Value.lean ====
/-
  The array the region leaves: all eight projections.

  Grid point `t` writes back the output block of rows `1000 t … 1000 t + 999` (all 8 slabs, all 256 columns). Its row block
  is those rows of the features and its weight block is the whole stack, and rounding the two inputs for the matrix unit
  is the identity on extended reals; so the block written back is that block of `projAll X W` of the two argument
  arrays. The 50 blocks cover the array (row `n` lies in block `n / 1000`), hence the array ends at `projAll X W`.
-/
import proofs.«125933_j16982300688782_1_alg».proof.Proof.KI.Frame
import proofs.«125933_j16982300688782_1_alg».proof.Proof.KI.BlockValue
import proofs.«125933_j16982300688782_1_alg».proof.Proof.Spec
import Idealize.ShloMosaic.Lib.Pipeline.Value
import Idealize.ShloMosaic.Lib.StableHlo.Run

set_option maxRecDepth 16384

open scoped BigOperators

noncomputable section

namespace Cert.KernelIdeal.Hand

open Cert.KernelIdeal Cert.KernelIdeal.Gen Cert.Spec
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The staged arrays are the argument arrays -/

/-- The rounded features the region stages are, as extended reals, the features. -/
theorem V_rows (c : Dev nD) : (V m c main_v0 : S50000x512.Idx → EReal) = m ((c : Thread nD τ).loc main_arg0) := by
  show StableHlo.after hostOps0 (fun b => m (c, b)) (Proc.devRef .tc main_v0) = _
  after_results
  rfl

/-- The rounded weights likewise. -/
theorem V_weights (c : Dev nD) : (V m c main_v1 : S8x512x256.Idx → EReal) = m ((c : Thread nD τ).loc main_arg1) := by
  show StableHlo.after hostOps0 (fun b => m (c, b)) (Proc.devRef .tc main_v1) = _
  after_results
  rfl

/-! ## The index maps -/

/-- The three windows' block indices at point `t`: rows `t`; the one weight block; rows `t` of every slab. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-! ## What a point writes back -/

/-- Point `t` writes back block `t` of `projAll X W`, for `X` and `W` the two staged arrays as the region finds them. -/
theorem flushed_aux (c : Dev nD) (t : Fin cfg0.N) (X : S50000x512.Idx → EReal) (W : S8x512x256.Idx → EReal)
    (hX : (V m c main_v0 : S50000x512.Idx → EReal) = X) (hW : (V m c main_v1 : S8x512x256.Idx → EReal) = W) :
    (dats m 0 c).flushed 2 t = ((cfg0.win 2).blk t).view.read (Elt Ideal) (projAll X W) := by
  show (cfg0.win 2).cut (grid0.coords t) ((dats m 0 c).after 2 t) = _
  rw [after_2]
  obtain ⟨e00, e01, e10, e11, e12, e20, e21, e22⟩ := idx_facts t
  funext j
  obtain ⟨r, p, e, rfl⟩ : ∃ (r : Fin 8) (p : Fin 1000) (e : Fin 256), j = ix3 r p e := ⟨j 0, j 1, j 2, eq_ix3 j⟩
  refine (projBlock_apply (iblk m c 0 t) (iblk m c 1 t) r p e).trans ?_
  show _ = ∑ f : Fin 512,
    X (ix2 ((((cfg0.win 2).blk t).view.emb (ix3 r p e)) 1) f)
      * W (ix3 ((((cfg0.win 2).blk t).view.emb (ix3 r p e)) 0) f ((((cfg0.win 2).blk t).view.emb (ix3 r p e)) 2))
  refine Finset.sum_congr rfl fun f _ => ?_
  have h0 : iblk m c 0 t (ix2 p f) = X (ix2 ((((cfg0.win 2).blk t).view.emb (ix3 r p e)) 1) f) := by
    show (V m c main_v0 : S50000x512.Idx → EReal) (((cfg0.win 0).blk t).view.emb (ix2 p f)) = _
    rw [hX]
    refine congrArg X (funext fun a => Fin.ext ?_)
    match a with
    | ⟨0, _⟩ => show win0_0.index t (0 : Fin 2) * 1000 + 1 * p.val = win0_2.index t (1 : Fin 3) * 1000 + 1 * p.val; omega
    | ⟨1, _⟩ => show win0_0.index t (1 : Fin 2) * 512 + 1 * f.val = f.val; omega
  have h1 : iblk m c 1 t (ix3 r f e)
      = W (ix3 ((((cfg0.win 2).blk t).view.emb (ix3 r p e)) 0) f ((((cfg0.win 2).blk t).view.emb (ix3 r p e)) 2)) := by
    show (V m c main_v1 : S8x512x256.Idx → EReal) (((cfg0.win 1).blk t).view.emb (ix3 r f e)) = _
    rw [hW]
    refine congrArg W (funext fun a => Fin.ext ?_)
    match a with
    | ⟨0, _⟩ => show win0_1.index t (0 : Fin 3) * 8 + 1 * r.val = win0_2.index t (0 : Fin 3) * 8 + 1 * r.val; omega
    | ⟨1, _⟩ => show win0_1.index t (1 : Fin 3) * 512 + 1 * f.val = f.val; omega
    | ⟨2, _⟩ => show win0_1.index t (2 : Fin 3) * 256 + 1 * e.val = win0_2.index t (2 : Fin 3) * 256 + 1 * e.val; omega
  exact congrArg₂ (· * ·) h0 h1

/-- Point `t` writes back block `t` of `projAll` of the argument arrays. -/
theorem flushed_eq (c : Dev nD) (t : Fin cfg0.N) :
    (dats m 0 c).flushed 2 t = ((cfg0.win 2).blk t).view.read (Elt Ideal)
      (projAll (m ((c : Thread nD τ).loc main_arg0)) (m ((c : Thread nD τ).loc main_arg1))) :=
  flushed_aux m c t _ _ (V_rows m c) (V_weights m c)

/-! ## The blocks cover the array -/

/-- An index of the output array is in point `t`'s block iff each coordinate is in the block's range on its axis. -/
theorem mem_blk (t : Fin cfg0.N) (i : S8x50000x256.Idx) :
    i ∈ ((cfg0.win 2).blk t).view.set ↔ ∀ a : Fin 3, win0_2.index t a * S8x1000x256.size a ≤ (i a).val
      ∧ (i a).val < win0_2.index t a * S8x1000x256.size a + S8x1000x256.size a := by
  show i ∈ ((View.whole main_v2).slice (win0_2.rect t)).set ↔ _
  rw [View.set_slice_whole, Rect.mem_set_unit]
  exact Iff.rfl

/-- Every index of the output array lies in the block of the point its row falls in. -/
theorem covered (i : S8x50000x256.Idx) :
    ∃ t : Fin cfg0.N, (cfg0.win 2).flush t = true ∧ i ∈ ((cfg0.win 2).blk t).view.set := by
  have hi0 : (i 0).val < 8 := (i 0).isLt
  have hi1 : (i 1).val < 50000 := (i 1).isLt
  have hi2 : (i 2).val < 256 := (i 2).isLt
  have hN : grid0.N = 50 := N_0
  let t : Fin cfg0.N := ⟨(i 1).val / 1000, by show (i 1).val / 1000 < grid0.N; omega⟩
  obtain ⟨e00, e01, e10, e11, e12, e20, e21, e22⟩ := idx_facts t
  have ht : t.val = (i 1).val / 1000 := rfl
  refine ⟨t, flush0_2 t, ?_⟩
  rw [mem_blk]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 1000 ≤ (i 1).val ∧ (i 1).val < win0_2.index t (1 : Fin 3) * 1000 + 1000; omega
  | ⟨2, _⟩ => show win0_2.index t (2 : Fin 3) * 256 ≤ (i 2).val ∧ (i 2).val < win0_2.index t (2 : Fin 3) * 256 + 256; omega

/-- The output array after the region: all eight projections of the argument arrays. -/
theorem final_out (c : Dev nD) :
    (dats m 0 c).arrAt 2 cfg0.N = projAll (m ((c : Thread nD τ).loc main_arg0)) (m ((c : Thread nD τ).loc main_arg1)) :=
  (dats m 0 c).arrAt_eq_of_cover 2 _ (fun t _ => flushed_eq m c t) covered

end Cert.KernelIdeal.Hand

end
-- ==== Proof.KI.TailValue.lean ====
/-
  What the 205 host lines after the region compute, as one function of the projected features and the edge arrays.

  For each relation `r`: the source indices of its 500000 edges (row `r` of the source array, a negative index wrapped by
  adding 50000) gather rows of relation `r`'s projected features `P r`; each gathered row is scaled by the edge's weight
  (row `r` of the weight array); the scaled rows are summed at their destination rows (row `r` of the destination
  array) into a zero 50000 × 256 matrix. The eight matrices are added in order onto zero, and the rectifier
  `max · 0` is applied. In the program the `P r` are the eight slabs of the region's output array.
-/
import proofs.«125933_j16982300688782_1_alg».proof.Proof.Gen.KernelIdeal.Launch
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe Idealize.ShloMosaic.StableHlo Idealize.SL.Sem

/-- The zero 50000 × 256 matrix. -/
def zeroMat : FVec Ideal S50000x256 .f32 :=
  broadcastInDim S50000x256 ![] bcast_S_S50000x256 (constant (F := Ideal) S_ .f32 0x00000000#32)

/-- One relation's messages summed at their destinations: projected features `P`, edge weights `w`, sources `s`,
    destinations `d`. -/
def contrib (P : FVec Ideal S50000x256 .f32) (w : FVec Ideal S500000 .f32)
    (s d : IVec S500000 32) : FVec Ideal S50000x256 .f32 :=
  Host.scatterAdd (F := Ideal) (φ := .f32) scatter_S50000x256_S500000x1_S500000x256_1_0_0_1 zeroMat
    (broadcastInDim S500000x1 ![0] bcast_S500000_S500000x1_0 d)
    (mulf (F := Ideal) (φ := .f32) (Host.gather gather_S50000x256_S500000x1_S500000x256_1_0_n_n_0_1_1256 P
        (broadcastInDim S500000x1 ![0] bcast_S500000_S500000x1_0
          (select (cmpi .slt s (broadcastInDim S500000 ![] bcast_S_S500000 (constantI S_ 32 0#32)))
            (addi s (broadcastInDim S500000 ![] bcast_S_S500000 (constantI S_ 32 50000#32))) s)))
      (broadcastInDim S500000x256 ![0, 1] bcast_S500000x1_S500000x256_0_1
        (broadcastInDim S500000x1 ![0] bcast_S500000_S500000x1_0 w)))

/-- Row 0 of an 8 × 500000 array, as a vector. -/
def row0 {α : Type} (a : S8x500000.Idx → α) : S500000.Idx → α :=
  shapeCast S500000 (extractStridedSlice S1x500000 ![0, 0] a slices_S8x500000_S1x500000_0_0) shapeCasts_S1x500000_S500000
/-- Slab 0 of the 8 × 50000 × 256 array of projected features, as a matrix. -/
def slab0Of {α : Type} (O : S8x50000x256.Idx → α) : S50000x256.Idx → α :=
  shapeCast S50000x256 (extractStridedSlice S1x50000x256 ![0, 0, 0] O slices_S8x50000x256_S1x50000x256_0_0_0) shapeCasts_S1x50000x256_S50000x256
/-- Row 1 of an 8 × 500000 array, as a vector. -/
def row1 {α : Type} (a : S8x500000.Idx → α) : S500000.Idx → α :=
  shapeCast S500000 (extractStridedSlice S1x500000 ![1, 0] a slices_S8x500000_S1x500000_1_0) shapeCasts_S1x500000_S500000
/-- Slab 1 of the 8 × 50000 × 256 array of projected features, as a matrix. -/
def slab1Of {α : Type} (O : S8x50000x256.Idx → α) : S50000x256.Idx → α :=
  shapeCast S50000x256 (extractStridedSlice S1x50000x256 ![1, 0, 0] O slices_S8x50000x256_S1x50000x256_1_0_0) shapeCasts_S1x50000x256_S50000x256
/-- Row 2 of an 8 × 500000 array, as a vector. -/
def row2 {α : Type} (a : S8x500000.Idx → α) : S500000.Idx → α :=
  shapeCast S500000 (extractStridedSlice S1x500000 ![2, 0] a slices_S8x500000_S1x500000_2_0) shapeCasts_S1x500000_S500000
/-- Slab 2 of the 8 × 50000 × 256 array of projected features, as a matrix. -/
def slab2Of {α : Type} (O : S8x50000x256.Idx → α) : S50000x256.Idx → α :=
  shapeCast S50000x256 (extractStridedSlice S1x50000x256 ![2, 0, 0] O slices_S8x50000x256_S1x50000x256_2_0_0) shapeCasts_S1x50000x256_S50000x256
/-- Row 3 of an 8 × 500000 array, as a vector. -/
def row3 {α : Type} (a : S8x500000.Idx → α) : S500000.Idx → α :=
  shapeCast S500000 (extractStridedSlice S1x500000 ![3, 0] a slices_S8x500000_S1x500000_3_0) shapeCasts_S1x500000_S500000
/-- Slab 3 of the 8 × 50000 × 256 array of projected features, as a matrix. -/
def slab3Of {α : Type} (O : S8x50000x256.Idx → α) : S50000x256.Idx → α :=
  shapeCast S50000x256 (extractStridedSlice S1x50000x256 ![3, 0, 0] O slices_S8x50000x256_S1x50000x256_3_0_0) shapeCasts_S1x50000x256_S50000x256
/-- Row 4 of an 8 × 500000 array, as a vector. -/
def row4 {α : Type} (a : S8x500000.Idx → α) : S500000.Idx → α :=
  shapeCast S500000 (extractStridedSlice S1x500000 ![4, 0] a slices_S8x500000_S1x500000_4_0) shapeCasts_S1x500000_S500000
/-- Slab 4 of the 8 × 50000 × 256 array of projected features, as a matrix. -/
def slab4Of {α : Type} (O : S8x50000x256.Idx → α) : S50000x256.Idx → α :=
  shapeCast S50000x256 (extractStridedSlice S1x50000x256 ![4, 0, 0] O slices_S8x50000x256_S1x50000x256_4_0_0) shapeCasts_S1x50000x256_S50000x256
/-- Row 5 of an 8 × 500000 array, as a vector. -/
def row5 {α : Type} (a : S8x500000.Idx → α) : S500000.Idx → α :=
  shapeCast S500000 (extractStridedSlice S1x500000 ![5, 0] a slices_S8x500000_S1x500000_5_0) shapeCasts_S1x500000_S500000
/-- Slab 5 of the 8 × 50000 × 256 array of projected features, as a matrix. -/
def slab5Of {α : Type} (O : S8x50000x256.Idx → α) : S50000x256.Idx → α :=
  shapeCast S50000x256 (extractStridedSlice S1x50000x256 ![5, 0, 0] O slices_S8x50000x256_S1x50000x256_5_0_0) shapeCasts_S1x50000x256_S50000x256
/-- Row 6 of an 8 × 500000 array, as a vector. -/
def row6 {α : Type} (a : S8x500000.Idx → α) : S500000.Idx → α :=
  shapeCast S500000 (extractStridedSlice S1x500000 ![6, 0] a slices_S8x500000_S1x500000_6_0) shapeCasts_S1x500000_S500000
/-- Slab 6 of the 8 × 50000 × 256 array of projected features, as a matrix. -/
def slab6Of {α : Type} (O : S8x50000x256.Idx → α) : S50000x256.Idx → α :=
  shapeCast S50000x256 (extractStridedSlice S1x50000x256 ![6, 0, 0] O slices_S8x50000x256_S1x50000x256_6_0_0) shapeCasts_S1x50000x256_S50000x256
/-- Row 7 of an 8 × 500000 array, as a vector. -/
def row7 {α : Type} (a : S8x500000.Idx → α) : S500000.Idx → α :=
  shapeCast S500000 (extractStridedSlice S1x500000 ![7, 0] a slices_S8x500000_S1x500000_7_0) shapeCasts_S1x500000_S500000
/-- Slab 7 of the 8 × 50000 × 256 array of projected features, as a matrix. -/
def slab7Of {α : Type} (O : S8x50000x256.Idx → α) : S50000x256.Idx → α :=
  shapeCast S50000x256 (extractStridedSlice S1x50000x256 ![7, 0, 0] O slices_S8x50000x256_S1x50000x256_7_0_0) shapeCasts_S1x50000x256_S50000x256

/-- The layer's output from the eight projected feature matrices and the three edge arrays. -/
def layer (P0 P1 P2 P3 P4 P5 P6 P7 : FVec Ideal S50000x256 .f32)
    (a2 : FVec Ideal S8x500000 .f32) (a3 a4 : IVec S8x500000 32) : FVec Ideal S50000x256 .f32 :=
  maximumf (F := Ideal) (φ := .f32) (addf (addf (addf (addf (addf (addf (addf (addf zeroMat
    (contrib P0 (row0 a2) (row0 a3) (row0 a4)))
    (contrib P1 (row1 a2) (row1 a3) (row1 a4)))
    (contrib P2 (row2 a2) (row2 a3) (row2 a4)))
    (contrib P3 (row3 a2) (row3 a3) (row3 a4)))
    (contrib P4 (row4 a2) (row4 a3) (row4 a4)))
    (contrib P5 (row5 a2) (row5 a3) (row5 a4)))
    (contrib P6 (row6 a2) (row6 a3) (row6 a4)))
    (contrib P7 (row7 a2) (row7 a3) (row7 a4))) zeroMat

set_option maxRecDepth 65536 in
set_option maxHeartbeats 100000000 in
/-- The later lines, run from any buffer contents `Wv`, leave in the result buffer the layer's output of the eight slabs
    of the region's output array and the three edge arrays as `Wv` holds them. -/
theorem tail_value (Wv : Valuation τ sig (Elt Ideal)) :
    StableHlo.after (List.flatten [hostOps1, hostOps1_1]) Wv (Proc.devRef .tc main_v180)
      = layer (slab0Of (Wv (Proc.devRef .tc main_v2))) (slab1Of (Wv (Proc.devRef .tc main_v2)))
          (slab2Of (Wv (Proc.devRef .tc main_v2))) (slab3Of (Wv (Proc.devRef .tc main_v2)))
          (slab4Of (Wv (Proc.devRef .tc main_v2))) (slab5Of (Wv (Proc.devRef .tc main_v2)))
          (slab6Of (Wv (Proc.devRef .tc main_v2))) (slab7Of (Wv (Proc.devRef .tc main_v2)))
          (Wv (Proc.devRef .tc main_arg2)) (Wv (Proc.devRef .tc main_arg3)) (Wv (Proc.devRef .tc main_arg4)) := by
  simp only [List.flatten_cons, List.flatten_nil, List.append_nil, hostOps1, hostOps1_1, List.cons_append, List.nil_append]
  after_results_simp <;> rfl

end Cert.KernelIdeal.Hand

end
-- ==== Proof.Bridge.lean ====
/-
  The kernel's program and the reference compute the same layer.

  Both programs end with the same host lines applied to eight projected feature matrices: the kernel's are the eight slabs
  of the array its region leaves — `projAll X W`, so slab `r` is `X · W r` —, the reference's are eight host products of
  the features with matrix `r` of the stack — again `X · W r`. Both are `projRel X W r`, entry by entry the same sum over
  the input feature; no law beyond re-indexing the contraction is used, so finiteness of the inputs is not needed.
-/
import proofs.«125933_j16982300688782_1_alg».proof.Proof.KI.Value
import proofs.«125933_j16982300688782_1_alg».proof.Proof.KI.TailValue
import proofs.«125933_j16982300688782_1_alg».proof.Proof.RefRun
import proofs.«125933_j16982300688782_1_alg».proof.Proof.Spec
import proofs.«125933_j16982300688782_1_alg».proof.Proof.LibProjection

set_option maxRecDepth 16384

open scoped BigOperators

noncomputable section

namespace Cert.Bridge

open Cert.Spec Cert.KernelIdeal.Hand
open Idealize.ShloMosaic Idealize.ShloMosaic.TcCoe Idealize.ShloMosaic.ValueIdx Idealize.SL.Sem

/-! ## The eight projections, on either side -/

/-- The reference's product for relation 0: the features times matrix 0 of the stack, on the host. -/
def refDot0 (X : FVec Ideal Cert.KernelIdeal.S50000x512 .f32) (W : FVec Ideal Cert.KernelIdeal.S8x512x256 .f32) :
    FVec Ideal Cert.KernelIdeal.S50000x256 .f32 :=
  Host.dotGeneral (F := Ideal) Cert.ReferenceIdeal.dot_S50000x512_S512x256_S50000x256_1_0_0_1_n_n none X
    (shapeCast Cert.ReferenceIdeal.S512x256 (extractStridedSlice Cert.ReferenceIdeal.S1x512x256 ![0, 0, 0] W Cert.ReferenceIdeal.Facts₀.slices_S8x512x256_S1x512x256_0_0_0)
      Cert.ReferenceIdeal.Facts₀.shapeCasts_S1x512x256_S512x256)

/-- It is relation 0's projection: the host's plain product at an entry is the sum over the input feature, and matrix
    0 of the stack at `(f, e)` is the stack at `(0, f, e)`. -/
theorem refDot0_eq (X : FVec Ideal Cert.KernelIdeal.S50000x512 .f32) (W : FVec Ideal Cert.KernelIdeal.S8x512x256 .f32) :
    refDot0 X W = projRel X W 0 := by
  funext i
  obtain ⟨n, e, rfl⟩ : ∃ (n : Fin 50000) (e : Fin 256), i = ix2 n e := ⟨i 0, i 1, eq_ix2 i⟩
  refine (Cert.Lib.Projection.dotGeneral_plain_apply (M := 50000) (K := 512) (N := 256) none X _ n e).trans ?_
  show _ = ∑ f : Fin 512, X (ix2 n f) * W (ix3 (0 : Fin 8) f e)
  refine Finset.sum_congr rfl fun f _ => ?_
  exact congrArg (X (ix2 n f) * ·) (Cert.Lib.Projection.slab_apply ![0, 0, 0] W _ _ (0 : Fin 8) rfl rfl rfl f e)

/-- Slab 0 of all eight projections is relation 0's projection. -/
theorem slab0_projAll (X : FVec Ideal Cert.KernelIdeal.S50000x512 .f32) (W : FVec Ideal Cert.KernelIdeal.S8x512x256 .f32) :
    slab0Of (projAll X W) = projRel X W 0 := by
  funext i
  obtain ⟨n, e, rfl⟩ : ∃ (n : Fin 50000) (e : Fin 256), i = ix2 n e := ⟨i 0, i 1, eq_ix2 i⟩
  exact Cert.Lib.Projection.slab_apply ![0, 0, 0] (projAll X W) _ _ (0 : Fin 8) rfl rfl rfl n e

/-- The reference's product for relation 1: the features times matrix 1 of the stack, on the host. -/
def refDot1 (X : FVec Ideal Cert.KernelIdeal.S50000x512 .f32) (W : FVec Ideal Cert.KernelIdeal.S8x512x256 .f32) :
    FVec Ideal Cert.KernelIdeal.S50000x256 .f32 :=
  Host.dotGeneral (F := Ideal) Cert.ReferenceIdeal.dot_S50000x512_S512x256_S50000x256_1_0_0_1_n_n none X
    (shapeCast Cert.ReferenceIdeal.S512x256 (extractStridedSlice Cert.ReferenceIdeal.S1x512x256 ![1, 0, 0] W Cert.ReferenceIdeal.Facts₀.slices_S8x512x256_S1x512x256_1_0_0)
      Cert.ReferenceIdeal.Facts₀.shapeCasts_S1x512x256_S512x256)

/-- It is relation 1's projection: the host's plain product at an entry is the sum over the input feature, and matrix
    1 of the stack at `(f, e)` is the stack at `(1, f, e)`. -/
theorem refDot1_eq (X : FVec Ideal Cert.KernelIdeal.S50000x512 .f32) (W : FVec Ideal Cert.KernelIdeal.S8x512x256 .f32) :
    refDot1 X W = projRel X W 1 := by
  funext i
  obtain ⟨n, e, rfl⟩ : ∃ (n : Fin 50000) (e : Fin 256), i = ix2 n e := ⟨i 0, i 1, eq_ix2 i⟩
  refine (Cert.Lib.Projection.dotGeneral_plain_apply (M := 50000) (K := 512) (N := 256) none X _ n e).trans ?_
  show _ = ∑ f : Fin 512, X (ix2 n f) * W (ix3 (1 : Fin 8) f e)
  refine Finset.sum_congr rfl fun f _ => ?_
  exact congrArg (X (ix2 n f) * ·) (Cert.Lib.Projection.slab_apply ![1, 0, 0] W _ _ (1 : Fin 8) rfl rfl rfl f e)

/-- Slab 1 of all eight projections is relation 1's projection. -/
theorem slab1_projAll (X : FVec Ideal Cert.KernelIdeal.S50000x512 .f32) (W : FVec Ideal Cert.KernelIdeal.S8x512x256 .f32) :
    slab1Of (projAll X W) = projRel X W 1 := by
  funext i
  obtain ⟨n, e, rfl⟩ : ∃ (n : Fin 50000) (e : Fin 256), i = ix2 n e := ⟨i 0, i 1, eq_ix2 i⟩
  exact Cert.Lib.Projection.slab_apply ![1, 0, 0] (projAll X W) _ _ (1 : Fin 8) rfl rfl rfl n e

/-- The reference's product for relation 2: the features times matrix 2 of the stack, on the host. -/
def refDot2 (X : FVec Ideal Cert.KernelIdeal.S50000x512 .f32) (W : FVec Ideal Cert.KernelIdeal.S8x512x256 .f32) :
    FVec Ideal Cert.KernelIdeal.S50000x256 .f32 :=
  Host.dotGeneral (F := Ideal) Cert.ReferenceIdeal.dot_S50000x512_S512x256_S50000x256_1_0_0_1_n_n none X
    (shapeCast Cert.ReferenceIdeal.S512x256 (extractStridedSlice Cert.ReferenceIdeal.S1x512x256 ![2, 0, 0] W Cert.ReferenceIdeal.Facts₀.slices_S8x512x256_S1x512x256_2_0_0)
      Cert.ReferenceIdeal.Facts₀.shapeCasts_S1x512x256_S512x256)

/-- It is relation 2's projection: the host's plain product at an entry is the sum over the input feature, and matrix
    2 of the stack at `(f, e)` is the stack at `(2, f, e)`. -/
theorem refDot2_eq (X : FVec Ideal Cert.KernelIdeal.S50000x512 .f32) (W : FVec Ideal Cert.KernelIdeal.S8x512x256 .f32) :
    refDot2 X W = projRel X W 2 := by
  funext i
  obtain ⟨n, e, rfl⟩ : ∃ (n : Fin 50000) (e : Fin 256), i = ix2 n e := ⟨i 0, i 1, eq_ix2 i⟩
  refine (Cert.Lib.Projection.dotGeneral_plain_apply (M := 50000) (K := 512) (N := 256) none X _ n e).trans ?_
  show _ = ∑ f : Fin 512, X (ix2 n f) * W (ix3 (2 : Fin 8) f e)
  refine Finset.sum_congr rfl fun f _ => ?_
  exact congrArg (X (ix2 n f) * ·) (Cert.Lib.Projection.slab_apply ![2, 0, 0] W _ _ (2 : Fin 8) rfl rfl rfl f e)

/-- Slab 2 of all eight projections is relation 2's projection. -/
theorem slab2_projAll (X : FVec Ideal Cert.KernelIdeal.S50000x512 .f32) (W : FVec Ideal Cert.KernelIdeal.S8x512x256 .f32) :
    slab2Of (projAll X W) = projRel X W 2 := by
  funext i
  obtain ⟨n, e, rfl⟩ : ∃ (n : Fin 50000) (e : Fin 256), i = ix2 n e := ⟨i 0, i 1, eq_ix2 i⟩
  exact Cert.Lib.Projection.slab_apply ![2, 0, 0] (projAll X W) _ _ (2 : Fin 8) rfl rfl rfl n e

/-- The reference's product for relation 3: the features times matrix 3 of the stack, on the host. -/
def refDot3 (X : FVec Ideal Cert.KernelIdeal.S50000x512 .f32) (W : FVec Ideal Cert.KernelIdeal.S8x512x256 .f32) :
    FVec Ideal Cert.KernelIdeal.S50000x256 .f32 :=
  Host.dotGeneral (F := Ideal) Cert.ReferenceIdeal.dot_S50000x512_S512x256_S50000x256_1_0_0_1_n_n none X
    (shapeCast Cert.ReferenceIdeal.S512x256 (extractStridedSlice Cert.ReferenceIdeal.S1x512x256 ![3, 0, 0] W Cert.ReferenceIdeal.Facts₀.slices_S8x512x256_S1x512x256_3_0_0)
      Cert.ReferenceIdeal.Facts₀.shapeCasts_S1x512x256_S512x256)

/-- It is relation 3's projection: the host's plain product at an entry is the sum over the input feature, and matrix
    3 of the stack at `(f, e)` is the stack at `(3, f, e)`. -/
theorem refDot3_eq (X : FVec Ideal Cert.KernelIdeal.S50000x512 .f32) (W : FVec Ideal Cert.KernelIdeal.S8x512x256 .f32) :
    refDot3 X W = projRel X W 3 := by
  funext i
  obtain ⟨n, e, rfl⟩ : ∃ (n : Fin 50000) (e : Fin 256), i = ix2 n e := ⟨i 0, i 1, eq_ix2 i⟩
  refine (Cert.Lib.Projection.dotGeneral_plain_apply (M := 50000) (K := 512) (N := 256) none X _ n e).trans ?_
  show _ = ∑ f : Fin 512, X (ix2 n f) * W (ix3 (3 : Fin 8) f e)
  refine Finset.sum_congr rfl fun f _ => ?_
  exact congrArg (X (ix2 n f) * ·) (Cert.Lib.Projection.slab_apply ![3, 0, 0] W _ _ (3 : Fin 8) rfl rfl rfl f e)

/-- Slab 3 of all eight projections is relation 3's projection. -/
theorem slab3_projAll (X : FVec Ideal Cert.KernelIdeal.S50000x512 .f32) (W : FVec Ideal Cert.KernelIdeal.S8x512x256 .f32) :
    slab3Of (projAll X W) = projRel X W 3 := by
  funext i
  obtain ⟨n, e, rfl⟩ : ∃ (n : Fin 50000) (e : Fin 256), i = ix2 n e := ⟨i 0, i 1, eq_ix2 i⟩
  exact Cert.Lib.Projection.slab_apply ![3, 0, 0] (projAll X W) _ _ (3 : Fin 8) rfl rfl rfl n e

/-- The reference's product for relation 4: the features times matrix 4 of the stack, on the host. -/
def refDot4 (X : FVec Ideal Cert.KernelIdeal.S50000x512 .f32) (W : FVec Ideal Cert.KernelIdeal.S8x512x256 .f32) :
    FVec Ideal Cert.KernelIdeal.S50000x256 .f32 :=
  Host.dotGeneral (F := Ideal) Cert.ReferenceIdeal.dot_S50000x512_S512x256_S50000x256_1_0_0_1_n_n none X
    (shapeCast Cert.ReferenceIdeal.S512x256 (extractStridedSlice Cert.ReferenceIdeal.S1x512x256 ![4, 0, 0] W Cert.ReferenceIdeal.Facts₀.slices_S8x512x256_S1x512x256_4_0_0)
      Cert.ReferenceIdeal.Facts₀.shapeCasts_S1x512x256_S512x256)

/-- It is relation 4's projection: the host's plain product at an entry is the sum over the input feature, and matrix
    4 of the stack at `(f, e)` is the stack at `(4, f, e)`. -/
theorem refDot4_eq (X : FVec Ideal Cert.KernelIdeal.S50000x512 .f32) (W : FVec Ideal Cert.KernelIdeal.S8x512x256 .f32) :
    refDot4 X W = projRel X W 4 := by
  funext i
  obtain ⟨n, e, rfl⟩ : ∃ (n : Fin 50000) (e : Fin 256), i = ix2 n e := ⟨i 0, i 1, eq_ix2 i⟩
  refine (Cert.Lib.Projection.dotGeneral_plain_apply (M := 50000) (K := 512) (N := 256) none X _ n e).trans ?_
  show _ = ∑ f : Fin 512, X (ix2 n f) * W (ix3 (4 : Fin 8) f e)
  refine Finset.sum_congr rfl fun f _ => ?_
  exact congrArg (X (ix2 n f) * ·) (Cert.Lib.Projection.slab_apply ![4, 0, 0] W _ _ (4 : Fin 8) rfl rfl rfl f e)

/-- Slab 4 of all eight projections is relation 4's projection. -/
theorem slab4_projAll (X : FVec Ideal Cert.KernelIdeal.S50000x512 .f32) (W : FVec Ideal Cert.KernelIdeal.S8x512x256 .f32) :
    slab4Of (projAll X W) = projRel X W 4 := by
  funext i
  obtain ⟨n, e, rfl⟩ : ∃ (n : Fin 50000) (e : Fin 256), i = ix2 n e := ⟨i 0, i 1, eq_ix2 i⟩
  exact Cert.Lib.Projection.slab_apply ![4, 0, 0] (projAll X W) _ _ (4 : Fin 8) rfl rfl rfl n e

/-- The reference's product for relation 5: the features times matrix 5 of the stack, on the host. -/
def refDot5 (X : FVec Ideal Cert.KernelIdeal.S50000x512 .f32) (W : FVec Ideal Cert.KernelIdeal.S8x512x256 .f32) :
    FVec Ideal Cert.KernelIdeal.S50000x256 .f32 :=
  Host.dotGeneral (F := Ideal) Cert.ReferenceIdeal.dot_S50000x512_S512x256_S50000x256_1_0_0_1_n_n none X
    (shapeCast Cert.ReferenceIdeal.S512x256 (extractStridedSlice Cert.ReferenceIdeal.S1x512x256 ![5, 0, 0] W Cert.ReferenceIdeal.Facts₀.slices_S8x512x256_S1x512x256_5_0_0)
      Cert.ReferenceIdeal.Facts₀.shapeCasts_S1x512x256_S512x256)

/-- It is relation 5's projection: the host's plain product at an entry is the sum over the input feature, and matrix
    5 of the stack at `(f, e)` is the stack at `(5, f, e)`. -/
theorem refDot5_eq (X : FVec Ideal Cert.KernelIdeal.S50000x512 .f32) (W : FVec Ideal Cert.KernelIdeal.S8x512x256 .f32) :
    refDot5 X W = projRel X W 5 := by
  funext i
  obtain ⟨n, e, rfl⟩ : ∃ (n : Fin 50000) (e : Fin 256), i = ix2 n e := ⟨i 0, i 1, eq_ix2 i⟩
  refine (Cert.Lib.Projection.dotGeneral_plain_apply (M := 50000) (K := 512) (N := 256) none X _ n e).trans ?_
  show _ = ∑ f : Fin 512, X (ix2 n f) * W (ix3 (5 : Fin 8) f e)
  refine Finset.sum_congr rfl fun f _ => ?_
  exact congrArg (X (ix2 n f) * ·) (Cert.Lib.Projection.slab_apply ![5, 0, 0] W _ _ (5 : Fin 8) rfl rfl rfl f e)

/-- Slab 5 of all eight projections is relation 5's projection. -/
theorem slab5_projAll (X : FVec Ideal Cert.KernelIdeal.S50000x512 .f32) (W : FVec Ideal Cert.KernelIdeal.S8x512x256 .f32) :
    slab5Of (projAll X W) = projRel X W 5 := by
  funext i
  obtain ⟨n, e, rfl⟩ : ∃ (n : Fin 50000) (e : Fin 256), i = ix2 n e := ⟨i 0, i 1, eq_ix2 i⟩
  exact Cert.Lib.Projection.slab_apply ![5, 0, 0] (projAll X W) _ _ (5 : Fin 8) rfl rfl rfl n e

/-- The reference's product for relation 6: the features times matrix 6 of the stack, on the host. -/
def refDot6 (X : FVec Ideal Cert.KernelIdeal.S50000x512 .f32) (W : FVec Ideal Cert.KernelIdeal.S8x512x256 .f32) :
    FVec Ideal Cert.KernelIdeal.S50000x256 .f32 :=
  Host.dotGeneral (F := Ideal) Cert.ReferenceIdeal.dot_S50000x512_S512x256_S50000x256_1_0_0_1_n_n none X
    (shapeCast Cert.ReferenceIdeal.S512x256 (extractStridedSlice Cert.ReferenceIdeal.S1x512x256 ![6, 0, 0] W Cert.ReferenceIdeal.Facts₀.slices_S8x512x256_S1x512x256_6_0_0)
      Cert.ReferenceIdeal.Facts₀.shapeCasts_S1x512x256_S512x256)

/-- It is relation 6's projection: the host's plain product at an entry is the sum over the input feature, and matrix
    6 of the stack at `(f, e)` is the stack at `(6, f, e)`. -/
theorem refDot6_eq (X : FVec Ideal Cert.KernelIdeal.S50000x512 .f32) (W : FVec Ideal Cert.KernelIdeal.S8x512x256 .f32) :
    refDot6 X W = projRel X W 6 := by
  funext i
  obtain ⟨n, e, rfl⟩ : ∃ (n : Fin 50000) (e : Fin 256), i = ix2 n e := ⟨i 0, i 1, eq_ix2 i⟩
  refine (Cert.Lib.Projection.dotGeneral_plain_apply (M := 50000) (K := 512) (N := 256) none X _ n e).trans ?_
  show _ = ∑ f : Fin 512, X (ix2 n f) * W (ix3 (6 : Fin 8) f e)
  refine Finset.sum_congr rfl fun f _ => ?_
  exact congrArg (X (ix2 n f) * ·) (Cert.Lib.Projection.slab_apply ![6, 0, 0] W _ _ (6 : Fin 8) rfl rfl rfl f e)

/-- Slab 6 of all eight projections is relation 6's projection. -/
theorem slab6_projAll (X : FVec Ideal Cert.KernelIdeal.S50000x512 .f32) (W : FVec Ideal Cert.KernelIdeal.S8x512x256 .f32) :
    slab6Of (projAll X W) = projRel X W 6 := by
  funext i
  obtain ⟨n, e, rfl⟩ : ∃ (n : Fin 50000) (e : Fin 256), i = ix2 n e := ⟨i 0, i 1, eq_ix2 i⟩
  exact Cert.Lib.Projection.slab_apply ![6, 0, 0] (projAll X W) _ _ (6 : Fin 8) rfl rfl rfl n e

/-- The reference's product for relation 7: the features times matrix 7 of the stack, on the host. -/
def refDot7 (X : FVec Ideal Cert.KernelIdeal.S50000x512 .f32) (W : FVec Ideal Cert.KernelIdeal.S8x512x256 .f32) :
    FVec Ideal Cert.KernelIdeal.S50000x256 .f32 :=
  Host.dotGeneral (F := Ideal) Cert.ReferenceIdeal.dot_S50000x512_S512x256_S50000x256_1_0_0_1_n_n none X
    (shapeCast Cert.ReferenceIdeal.S512x256 (extractStridedSlice Cert.ReferenceIdeal.S1x512x256 ![7, 0, 0] W Cert.ReferenceIdeal.Facts₀.slices_S8x512x256_S1x512x256_7_0_0)
      Cert.ReferenceIdeal.Facts₀.shapeCasts_S1x512x256_S512x256)

/-- It is relation 7's projection: the host's plain product at an entry is the sum over the input feature, and matrix
    7 of the stack at `(f, e)` is the stack at `(7, f, e)`. -/
theorem refDot7_eq (X : FVec Ideal Cert.KernelIdeal.S50000x512 .f32) (W : FVec Ideal Cert.KernelIdeal.S8x512x256 .f32) :
    refDot7 X W = projRel X W 7 := by
  funext i
  obtain ⟨n, e, rfl⟩ : ∃ (n : Fin 50000) (e : Fin 256), i = ix2 n e := ⟨i 0, i 1, eq_ix2 i⟩
  refine (Cert.Lib.Projection.dotGeneral_plain_apply (M := 50000) (K := 512) (N := 256) none X _ n e).trans ?_
  show _ = ∑ f : Fin 512, X (ix2 n f) * W (ix3 (7 : Fin 8) f e)
  refine Finset.sum_congr rfl fun f _ => ?_
  exact congrArg (X (ix2 n f) * ·) (Cert.Lib.Projection.slab_apply ![7, 0, 0] W _ _ (7 : Fin 8) rfl rfl rfl f e)

/-- Slab 7 of all eight projections is relation 7's projection. -/
theorem slab7_projAll (X : FVec Ideal Cert.KernelIdeal.S50000x512 .f32) (W : FVec Ideal Cert.KernelIdeal.S8x512x256 .f32) :
    slab7Of (projAll X W) = projRel X W 7 := by
  funext i
  obtain ⟨n, e, rfl⟩ : ∃ (n : Fin 50000) (e : Fin 256), i = ix2 n e := ⟨i 0, i 1, eq_ix2 i⟩
  exact Cert.Lib.Projection.slab_apply ![7, 0, 0] (projAll X W) _ _ (7 : Fin 8) rfl rfl rfl n e

/-! ## The reference's result is the layer of its eight products -/

set_option maxRecDepth 65536 in
set_option maxHeartbeats 4000000 in
/-- The reference run's result term is the layer's function of its eight host products and the edge arrays: the two
    terms are the same operations in the same order. -/
theorem ref_value (m' : (ℓ : Loc Cert.ReferenceIdeal.nD Cert.ReferenceIdeal.τ Cert.ReferenceIdeal.sig) → Buf (Elt Ideal) ℓ) (c : Dev Cert.ReferenceIdeal.nD) :
    (Cert.ReferenceIdeal.ValueP.res_main_v185 m' c : (⟨Cert.KernelIdeal.S50000x256, .f32⟩ : BufTy).Contents (Elt Ideal))
      = layer (refDot0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
          (refDot1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
          (refDot2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
          (refDot3 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
          (refDot4 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
          (refDot5 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
          (refDot6 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
          (refDot7 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) := by
  unfold Cert.ReferenceIdeal.ValueP.res_main_v185
  rfl

/-- Hence it is the layer of the eight projections. -/
theorem ref_value_proj (m' : (ℓ : Loc Cert.ReferenceIdeal.nD Cert.ReferenceIdeal.τ Cert.ReferenceIdeal.sig) → Buf (Elt Ideal) ℓ) (c : Dev Cert.ReferenceIdeal.nD) :
    (Cert.ReferenceIdeal.ValueP.res_main_v185 m' c : (⟨Cert.KernelIdeal.S50000x256, .f32⟩ : BufTy).Contents (Elt Ideal))
      = layer (projRel (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) 0)
          (projRel (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) 1)
          (projRel (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) 2)
          (projRel (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) 3)
          (projRel (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) 4)
          (projRel (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) 5)
          (projRel (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) 6)
          (projRel (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) 7)
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) := by
  rw [ref_value, refDot0_eq, refDot1_eq, refDot2_eq, refDot3_eq, refDot4_eq, refDot5_eq, refDot6_eq, refDot7_eq]

/-! ## The kernel program's result is the layer of the eight projections -/

section Kernel

open Cert.KernelIdeal Cert.KernelIdeal.Gen

variable (m : (ℓ : Loc nD τ sig) → Buf (Elt Ideal) ℓ) (ρ : Dev nD → PrngReg)

/-- From any buffer contents holding all eight projections in the region's output array and the edge arrays as
    launched, the later lines leave the layer of the eight projections in the result buffer. -/
theorem tail_of_proj (Wv : Valuation τ sig (Elt Ideal))
    (X : FVec Ideal S50000x512 .f32) (W : FVec Ideal S8x512x256 .f32)
    (A2 : (⟨S8x500000, .f32⟩ : BufTy).Contents (Elt Ideal)) (A3 A4 : (⟨S8x500000, .i32⟩ : BufTy).Contents (Elt Ideal))
    (h2 : Wv (Proc.devRef .tc main_v2) = projAll X W)
    (ha2 : Wv (Proc.devRef .tc main_arg2) = A2) (ha3 : Wv (Proc.devRef .tc main_arg3) = A3) (ha4 : Wv (Proc.devRef .tc main_arg4) = A4) :
    StableHlo.after (List.flatten [hostOps1, hostOps1_1]) Wv (Proc.devRef .tc main_v180)
      = layer (projRel X W 0) (projRel X W 1) (projRel X W 2) (projRel X W 3) (projRel X W 4) (projRel X W 5) (projRel X W 6) (projRel X W 7) A2 A3 A4 := by
  rw [tail_value, h2, ha2, ha3, ha4, slab0_projAll, slab1_projAll, slab2_projAll, slab3_projAll, slab4_projAll, slab5_projAll, slab6_projAll, slab7_projAll]

/-- The result buffer after the whole kernel program. -/
theorem kernel_result (c : Dev nD) :
    Pipeline.afterTail₀ cfgs (dats m) 0 (V0 m) [hostOps1, hostOps1_1] c main_v180
      = layer (projRel (m ((c : Thread nD τ).loc main_arg0)) (m ((c : Thread nD τ).loc main_arg1)) 0)
          (projRel (m ((c : Thread nD τ).loc main_arg0)) (m ((c : Thread nD τ).loc main_arg1)) 1)
          (projRel (m ((c : Thread nD τ).loc main_arg0)) (m ((c : Thread nD τ).loc main_arg1)) 2)
          (projRel (m ((c : Thread nD τ).loc main_arg0)) (m ((c : Thread nD τ).loc main_arg1)) 3)
          (projRel (m ((c : Thread nD τ).loc main_arg0)) (m ((c : Thread nD τ).loc main_arg1)) 4)
          (projRel (m ((c : Thread nD τ).loc main_arg0)) (m ((c : Thread nD τ).loc main_arg1)) 5)
          (projRel (m ((c : Thread nD τ).loc main_arg0)) (m ((c : Thread nD τ).loc main_arg1)) 6)
          (projRel (m ((c : Thread nD τ).loc main_arg0)) (m ((c : Thread nD τ).loc main_arg1)) 7)
          (m ((c : Thread nD τ).loc main_arg2)) (m ((c : Thread nD τ).loc main_arg3)) (m ((c : Thread nD τ).loc main_arg4)) := by
  unfold Pipeline.afterTail₀
  refine tail_of_proj _ _ _ _ _ _ ?_ ?_ ?_ ?_
  · exact (Pipeline.withArrays_arr spec0 launch0.win.arr_inj c _ _ 2).trans (final_out m c)
  · exact (Pipeline.withArrays_of_ne _ c (V0 m c) _ main_arg2 (by decide)).trans
      (V_kept m c main_arg2 (by simp only [List.mem_cons, true_or, or_true]))
  · exact (Pipeline.withArrays_of_ne _ c (V0 m c) _ main_arg3 (by decide)).trans
      (V_kept m c main_arg3 (by simp only [List.mem_cons, true_or, or_true]))
  · exact (Pipeline.withArrays_of_ne _ c (V0 m c) _ main_arg4 (by decide)).trans
      (V_kept m c main_arg4 (by simp only [List.mem_cons, true_or, or_true]))

/-- The kernel program's run with its result named: every weakly fair execution terminates without a fault, the result
    buffer holds the layer of the eight projections, and the argument arrays end as launched. -/
theorem kernel_run : θ_run defs (onTc (τ := τ) (main (F := Ideal))) ⟨m, fun _ => 0, ρ⟩ (fun r => ∀ c : Dev nD,
      r.2.mem ((c.tc : Thread nD τ).loc main_v180)
        = layer (projRel (m ((c.tc : Thread nD τ).loc main_arg0)) (m ((c.tc : Thread nD τ).loc main_arg1)) 0)
            (projRel (m ((c.tc : Thread nD τ).loc main_arg0)) (m ((c.tc : Thread nD τ).loc main_arg1)) 1)
            (projRel (m ((c.tc : Thread nD τ).loc main_arg0)) (m ((c.tc : Thread nD τ).loc main_arg1)) 2)
            (projRel (m ((c.tc : Thread nD τ).loc main_arg0)) (m ((c.tc : Thread nD τ).loc main_arg1)) 3)
            (projRel (m ((c.tc : Thread nD τ).loc main_arg0)) (m ((c.tc : Thread nD τ).loc main_arg1)) 4)
            (projRel (m ((c.tc : Thread nD τ).loc main_arg0)) (m ((c.tc : Thread nD τ).loc main_arg1)) 5)
            (projRel (m ((c.tc : Thread nD τ).loc main_arg0)) (m ((c.tc : Thread nD τ).loc main_arg1)) 6)
            (projRel (m ((c.tc : Thread nD τ).loc main_arg0)) (m ((c.tc : Thread nD τ).loc main_arg1)) 7)
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v180 (Pipeline.mem_restRefs_of main_v180 (by decide) (by decide))).trans (kernel_result m c),
     ((h c).2 main_arg0 (Pipeline.mem_restRefs_of main_arg0 (by decide) (by decide))).trans (W_arg m (dats m) c main_arg0 (by simp only [List.mem_cons, true_or, or_true])),
     ((h c).2 main_arg1 (Pipeline.mem_restRefs_of main_arg1 (by decide) (by decide))).trans (W_arg m (dats m) c main_arg1 (by simp only [List.mem_cons, true_or, or_true])),
     ((h c).2 main_arg2 (Pipeline.mem_restRefs_of main_arg2 (by decide) (by decide))).trans (W_arg m (dats m) c main_arg2 (by simp only [List.mem_cons, true_or, or_true])),
     ((h c).2 main_arg3 (Pipeline.mem_restRefs_of main_arg3 (by decide) (by decide))).trans (W_arg m (dats m) c main_arg3 (by simp only [List.mem_cons, true_or, or_true])),
     ((h c).2 main_arg4 (Pipeline.mem_restRefs_of main_arg4 (by decide) (by decide))).trans (W_arg m (dats m) c main_arg4 (by simp only [List.mem_cons, true_or, or_true]))⟩)
    (run_main (F := Ideal) m ρ)

end Kernel

end Cert.Bridge

end
-- ==== Proof.lean ====
/-
  The certificate: the relation-graph convolution's projection kernel against its reference.

  `out = relu (Σ_r A_r · (X · W_r))` with each `A_r` given as an edge list. The kernel program computes the eight dense
  products `X · W_r` in one region over 50 row blocks and then, per relation, gathers source rows, scales them by the
  edge weights, sums them at destination rows and accumulates; the reference computes each `X · W_r` on the host and
  then does the same. Rounding the operands for the matrix unit is the identity on extended reals, a product into a
  zero accumulator is the plain sum over the contracted coordinate, and that sum is the host product's: so both programs
  apply one and the same function (`layer`) to the same eight matrices (`projRel X W r`) and the same edge arrays.
  The three frames: each program runs to its end without a fault and leaves its five argument arrays as launched. The
  idealization rewrote nothing, so there is nothing to preserve.
-/
import proofs.«125933_j16982300688782_1_alg».proof.Defs
import proofs.«125933_j16982300688782_1_alg».proof.Proof.Gen.Kernel
import proofs.«125933_j16982300688782_1_alg».proof.Proof.Gen.KernelIdeal
import proofs.«125933_j16982300688782_1_alg».proof.Proof.Gen.ReferenceIdeal
import proofs.«125933_j16982300688782_1_alg».proof.Proof.Gen.Pre_finite_inputs
import proofs.«125933_j16982300688782_1_alg».proof.Proof.K.Frame
import proofs.«125933_j16982300688782_1_alg».proof.Proof.KI.Frame
import proofs.«125933_j16982300688782_1_alg».proof.Proof.RefRun
import proofs.«125933_j16982300688782_1_alg».proof.Proof.Bridge
import Idealize.ShloMosaic.Adequacy
import Idealize.ShloMosaic.Init

noncomputable section

namespace Cert.Proof

open Idealize.ShloMosaic Idealize.ShloMosaic.TcCoe Idealize.SL.Sem

/-- The kernel program, read at bit patterns, runs and leaves its arguments unchanged. -/
theorem frame_k : Cert.frame_Kernel := fun m ρ _ => Cert.Kernel.Hand.frame m ρ

/-- The kernel program, read at extended reals, runs and leaves its arguments unchanged. -/
theorem frame_ki : Cert.frame_KernelIdeal := fun m ρ _ => Cert.KernelIdeal.Hand.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the layer of the eight projections of the features
    by the relation matrices and the three edge arrays: the kernel program by its region's output array and its later
    lines, the reference by its run's term, whose eight host products are those projections. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.Bridge.ref_value_proj, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
